-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x128 : Shape := ⟨2, ![64, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64x128 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : FVec F S100000x64 .f32) (main_arg2 : IVec S1000000 32) (main_arg3 : IVec S1000000 32) (main_arg4 : FVec F S64x64 .f32) (main_arg5 : FVec F S64 .f32) (main_arg6 : FVec F S64x128 .f32) (main_arg7 : FVec F S64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S10000x64 : Shape := ⟨2, ![10000, 64]⟩
abbrev S_ : Shape := ⟨0, ![]⟩
abbrev S1000000x1 : Shape := ⟨2, ![1000000, 1]⟩
abbrev S1000000x64 : Shape := ⟨2, ![1000000, 64]⟩
abbrev S20000x64 : Shape := ⟨2, ![20000, 64]⟩
abbrev S100000 : Shape := ⟨1, ![100000]⟩
abbrev S100000x1 : Shape := ⟨2, ![100000, 1]⟩

abbrev nBuf : Space → Nat
  | .hbm => 61
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S1x64, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S_, .f32⟩
  | .hbm, ⟨29, _⟩ => ⟨S20000x64, .f32⟩
  | .hbm, ⟨30, _⟩ => ⟨S1000000x1, .i32⟩
  | .hbm, ⟨31, _⟩ => ⟨S20000x64, .f32⟩
  | .hbm, ⟨32, _⟩ => ⟨S_, .f32⟩
  | .hbm, ⟨33, _⟩ => ⟨S1x64, .f32⟩
  | .hbm, ⟨34, _⟩ => ⟨S20000x64, .f32⟩
  | .hbm, ⟨35, _⟩ => ⟨S_, .f32⟩
  | .hbm, ⟨36, _⟩ => ⟨S1000000, .f32⟩
  | .hbm, ⟨37, _⟩ => ⟨S_, .f32⟩
  | .hbm, ⟨38, _⟩ => ⟨S100000, .f32⟩
  | .hbm, ⟨39, _⟩ => ⟨S1000000x1, .i32⟩
  | .hbm, ⟨40, _⟩ => ⟨S100000, .f32⟩
  | .hbm, ⟨41, _⟩ => ⟨S100000x1, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x64, .f32⟩
  | .hbm, ⟨51, _⟩ => ⟨S_, .f32⟩
  | .hbm, ⟨52, _⟩ => ⟨S100000x64, .f32⟩
  | .hbm, ⟨53, _⟩ => ⟨S1000000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S64x64, .f32⟩
  | .hbm, ⟨59, _⟩ => ⟨S1x64, .f32⟩
  | .hbm, ⟨60, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S64x64_S64x64_1_0 : S64x64.Transposes [1, 0] S64x64
  shapeCasts_S64_S1x64 : S64.ShapeCasts S1x64
  slices_S64x128_S64x64_0_0 : S64x128.Slices ![0, 0] S64x64
  slices_S64x128_S64x64_0_64 : S64x128.Slices ![0, 64] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  bcast_S_S1x64 : S_.BroadcastsInDim S1x64 (![] : Fin 0 → Fin S1x64.rank)
  shapeCasts_S10000x64_S10000x64 : S10000x64.ShapeCasts S10000x64
  bcast_S_S100000 : S_.BroadcastsInDim S100000 (![] : Fin 0 → Fin S100000.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  scatter_S100000_S1000000x1_S1000000_n_0_0_1_wf : ScatterDims.WF S100000 S1000000x1 S1000000 [] [0] [0] 1
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S20000x64.size a
  hwx1_0 : ∀ i : grid1.Coords, EltTy.bits .f32 = 32 ∨ (Rect.block (s := S20000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S20000x64.size a
  hwx1_3 : ∀ i : grid1.Coords, EltTy.bits .f32 = 32 ∨ (Rect.block (s := S20000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S_ : Shape := ⟨0, ![]⟩
abbrev S1000000x1 : Shape := ⟨2, ![1000000, 1]⟩
abbrev S1000000x64 : Shape := ⟨2, ![1000000, 64]⟩
abbrev S20000x64 : Shape := ⟨2, ![20000, 64]⟩
abbrev S1000000x128 : Shape := ⟨2, ![1000000, 128]⟩
abbrev S128x64 : Shape := ⟨2, ![128, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S100000x64, .f32⟩
  | .hbm, ⟨12, _⟩ => ⟨S1x64, .f32⟩
  | .hbm, ⟨13, _⟩ => ⟨S100000x64, .f32⟩
  | .hbm, ⟨14, _⟩ => ⟨S100000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .f32⟩
  | .hbm, ⟨25, _⟩ => ⟨S20000x64, .f32⟩
  | .hbm, ⟨26, _⟩ => ⟨S1000000x1, .i32⟩
  | .hbm, ⟨27, _⟩ => ⟨S20000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S1000000x128, .f32⟩
  | .hbm, ⟨47, _⟩ => ⟨S128x64, .f32⟩
  | .hbm, ⟨48, _⟩ => ⟨S1000000x64, .f32⟩
  | .hbm, ⟨49, _⟩ => ⟨S1x64, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S64x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  concatenates_S1000000x64_S1000000x64_S1000000x128_d1 : Shape.Concatenates [S1000000x64, S1000000x64] S1000000x128 1
  transposes_S64x128_S128x64_1_0 : S64x128.Transposes [1, 0] S128x64
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  gather_S20000x64_S1000000x1_S1000000x64_1_0_n_n_0_1_164_wf : GatherDims.WF S20000x64 S1000000x1 S1000000x64 [1] [0] [] [0] [] 1 ![1, 64]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KernelRun.lean ====
/-
  The idealized kernel's run with its two results named.

  The program is three launches among stretches of host operations. Its run ends with every buffer that outlives
  the launches holding the last boundary's contents: the fold of the host stretches and of what each launch's
  write-backs leave, from the launch memory. So the two result buffers hold that fold read at their references, and
  the ten argument arrays are as launched.
-/
import proofs.«144145_j50233937494095_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the final memory holds, at the two result
    buffers, the last boundary's contents, and at each argument what was launched. -/
theorem run : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       h c _ (mem_uc main_v17 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.RunValue

end
-- ==== Proof.Spec.lean ====
/-
  The functions both programs compute, entry by entry, on the extended reals.

  Every dense stage of the two-hop hypergraph convolution is an affine row map: entry (p, q) of X · Wt + b is the sum
  over k of X(p, k) · Wt(k, q), plus b(q). The last stage applies it to the even mix of two arrays.
-/
import Idealize.ShloMosaic.PureOps.Ideal
import Idealize.ShloMosaic.Lib.ValueIdx

noncomputable section

open scoped BigOperators

namespace Cert.SetConv

open Idealize.ShloMosaic Idealize.ShloMosaic.ValueIdx

/-- Entry (p, q) of the affine row map X · Wt + b: the weights are read with the contracted coordinate first, the
    bias as a one-row matrix. -/
def rowLinAt {M : ℕ} (X : (⟨2, ![M, 64]⟩ : Shape).Idx → EReal) (Wt : (⟨2, ![64, 64]⟩ : Shape).Idx → EReal)
    (b : (⟨2, ![1, 64]⟩ : Shape).Idx → EReal) (p : Fin M) (q : Fin 64) : EReal :=
  (∑ k : Fin 64, X (ix2 p k) * Wt (ix2 k q)) + b (ix2 (0 : Fin 1) q)

/-- The affine row map X · Wt + b as an array. -/
def rowLin {M : ℕ} (X : (⟨2, ![M, 64]⟩ : Shape).Idx → EReal) (Wt : (⟨2, ![64, 64]⟩ : Shape).Idx → EReal)
    (b : (⟨2, ![1, 64]⟩ : Shape).Idx → EReal) : (⟨2, ![M, 64]⟩ : Shape).Idx → EReal :=
  fun i => rowLinAt X Wt b (i 0) (i 1)

theorem rowLin_apply {M : ℕ} (X : (⟨2, ![M, 64]⟩ : Shape).Idx → EReal) (Wt : (⟨2, ![64, 64]⟩ : Shape).Idx → EReal)
    (b : (⟨2, ![1, 64]⟩ : Shape).Idx → EReal) (p : Fin M) (q : Fin 64) :
    rowLin X Wt b (ix2 p q) = rowLinAt X Wt b p q := rfl

/-- One half, as the binary32 word both programs carry for it. -/
def half : EReal := Ideal.ofBits .f32 0x3F000000#32

/-- The even mix of two arrays: half of each entry of the first plus half of the same entry of the second. -/
def mix {s : Shape} (a b : s.Idx → EReal) : s.Idx → EReal := fun i => half * a i + half * b i

theorem mix_apply {s : Shape} (a b : s.Idx → EReal) (i : s.Idx) : mix a b i = half * a i + half * b i := rfl

end Cert.SetConv

end
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.RegionRows.lean ====
/-
  What each of the kernel's three regions leaves in its output arrays, as one function of the arrays it found.

  A region walks a grid of points. At each point it holds one block of 10000 consecutive rows of every tall array it
  reads, together with the whole of a 64 × 64 weight matrix and of a one-row bias, computes the block X · Wt + b (the
  last region first mixes two row blocks half and half), and writes that block back to the same 10000 rows of its output
  array. Entry (p, q) of an affine row map depends on row p of X only, and row p lies in exactly one block — block
  p / 10000, at row p mod 10000 inside it — so the blocks written back, taken together, are the affine row map of the whole
  arrays: that is what the theorems below say, one per output array.
-/
import proofs.«144145_j50233937494095_2_alg».proof.Proof.Gen.KernelIdeal.Frame
import proofs.«144145_j50233937494095_2_alg».proof.Proof.Spec
import proofs.«144145_j50233937494095_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx
open Idealize.ShloMosaic.TcCoe Idealize.SL.Sem
open Idealize.ShloMosaic.Pipeline (Dat)

/-! ## The arithmetic of one block

Each region's body turns a 10000 × 64 block of rows X, a 64 × 64 matrix Wt and a one-row bias b into the block
X · Wt + b: entry (r, q) is the sum over k of X(r, k) · Wt(k, q), plus b(q). The roundings to the narrow format on the
way into the product are the identity on the extended reals. -/

/-- The product's dimension numbers (contract the left operand's second axis with the right operand's first) are the
    plain matrix product's. -/
theorem dot_plain : dot_S10000x64_S64x64_S10000x64_1_0_0_1_n_n = DotDims.plain 10000 64 64 := rfl

/-- The one-row bias spread over the 10000 rows reads, at (r, q), its entry q. -/
theorem bias_row (x2 : Vec Ideal S1x64 .f32) (r : Fin 10000) (q : Fin 64) :
    broadcastTo S10000x64 x2 broadcasts_S1x64_S10000x64 (ix2 r q) = x2 (ix2 (0 : Fin 1) q) := by
  refine broadcastTo_apply x2 _ (ix2 r q) (ix2 (0 : Fin 1) q) (fun a => ?_)
  match a with
  | ⟨0, _⟩ => rfl
  | ⟨1, _⟩ => rfl

/-- Region 0's first stored block at (r, q): row r of the block against column q of the weights, plus the bias. -/
theorem lin1_at (x0 : Vec Ideal S10000x64 .f32) (x1 : Vec Ideal S64x64 .f32) (x2 : Vec Ideal S1x64 .f32) (r : Fin 10000) (q : Fin 64) :
    k0_pay2 x0 x1 x2 (ix2 r q) = Cert.SetConv.rowLinAt (M := 10000) x0 x1 x2 r q := by
  unfold k0_pay2 k0_pay1
  simp only [shapeCast_self]
  refine (addf_apply _ _ _).trans ?_
  unfold Cert.SetConv.rowLinAt
  refine congrArg₂ (· + ·) ?_ (bias_row x2 r q)
  exact matmul_plain_zero_apply _ dot_plain none _ _ r q

/-- Region 0's second stored block at (r, q): the same row of the same block, against the second weights and bias. -/
theorem xab_at (x0 : Vec Ideal S10000x64 .f32) (x1 : Vec Ideal S64x64 .f32) (x2 : Vec Ideal S1x64 .f32) (r : Fin 10000) (q : Fin 64) :
    k0_pay3 x0 x1 x2 (ix2 r q) = Cert.SetConv.rowLinAt (M := 10000) x0 x1 x2 r q := by
  unfold k0_pay3 k0_pay1
  simp only [shapeCast_self]
  refine (addf_apply _ _ _).trans ?_
  unfold Cert.SetConv.rowLinAt
  refine congrArg₂ (· + ·) ?_ (bias_row x2 r q)
  exact matmul_plain_zero_apply _ dot_plain none _ _ r q

/-- Region 1's stored block at (r, q). -/
theorem xeb_at (x0 : Vec Ideal S10000x64 .f32) (x1 : Vec Ideal S64x64 .f32) (x2 : Vec Ideal S1x64 .f32) (r : Fin 10000) (q : Fin 64) :
    k1_pay1 x0 x1 x2 (ix2 r q) = Cert.SetConv.rowLinAt (M := 10000) x0 x1 x2 r q := by
  unfold k1_pay1
  simp only [shapeCast_self]
  refine (addf_apply _ _ _).trans ?_
  unfold Cert.SetConv.rowLinAt
  refine congrArg₂ (· + ·) ?_ (bias_row x2 r q)
  exact matmul_plain_zero_apply _ dot_plain none _ _ r q

/-- Region 2's stored block at (r, q): the affine row map of the even mix of its two row blocks. The two halves the
    body multiplies by are the one binary32 word the specification names. -/
theorem out_at (x0 x1 : Vec Ideal S10000x64 .f32) (x2 : Vec Ideal S64x64 .f32) (x3 : Vec Ideal S1x64 .f32) (r : Fin 10000) (q : Fin 64) :
    k2_pay1 x0 x1 x2 x3 (ix2 r q) = Cert.SetConv.rowLinAt (M := 10000) (Cert.SetConv.mix x0 x1) x2 x3 r q := by
  unfold k2_pay1
  simp only [shapeCast_self]
  refine (addf_apply _ _ _).trans ?_
  unfold Cert.SetConv.rowLinAt
  refine congrArg₂ (· + ·) ?_ (bias_row x3 r q)
  refine (matmul_plain_zero_apply _ dot_plain none _ _ r q).trans ?_
  exact Finset.sum_congr rfl fun k _ => rfl

/-- An entry of the affine row map of a block is the same entry of the affine row map of whole arrays, once the
    block's row r is the array's row p and the weights and bias are read at the same column: the entry depends on
    that one row of X, that one column of Wt and that one entry of b only. -/
theorem rowLinAt_congr {M N : ℕ} (x0 : (⟨2, ![N, 64]⟩ : Shape).Idx → EReal) (x1 : (⟨2, ![64, 64]⟩ : Shape).Idx → EReal)
    (x2 : (⟨2, ![1, 64]⟩ : Shape).Idx → EReal) (X : (⟨2, ![M, 64]⟩ : Shape).Idx → EReal)
    (W : (⟨2, ![64, 64]⟩ : Shape).Idx → EReal) (b : (⟨2, ![1, 64]⟩ : Shape).Idx → EReal)
    (r : Fin N) (q : Fin 64) (p : Fin M) (q' : Fin 64)
    (h0 : ∀ k : Fin 64, x0 (ix2 r k) = X (ix2 p k))
    (h1 : ∀ k : Fin 64, x1 (ix2 k q) = W (ix2 k q'))
    (h2 : x2 (ix2 (0 : Fin 1) q) = b (ix2 (0 : Fin 1) q')) :
    Cert.SetConv.rowLinAt x0 x1 x2 r q = Cert.SetConv.rowLinAt X W b p q' := by
  unfold Cert.SetConv.rowLinAt
  rw [h2]
  refine congrArg (· + b (ix2 (0 : Fin 1) q')) ?_
  exact Finset.sum_congr rfl fun k _ => by rw [h0 k, h1 k]

/-- From a block to the array. Let y be a 10000 × 64 block that is the affine row map of the blocks x0, x1, x2 (hy);
    let x0 hold rows 10000·n … 10000·n + 9999 of a tall array X (h0), and let x1, x2 be the weights W and the bias b
    themselves (h1, h2). Then entry j of y is the affine row map of X, W, b at the array index i that j names: row
    10000·n + (j's row), j's column. -/
theorem entry_of_blocks {M : ℕ} (X : (⟨2, ![M, 64]⟩ : Shape).Idx → EReal) (W : S64x64.Idx → EReal) (b : S1x64.Idx → EReal)
    (x0 : S10000x64.Idx → EReal) (x1 : S64x64.Idx → EReal) (x2 : S1x64.Idx → EReal) (y : S10000x64.Idx → EReal)
    (hy : ∀ (r : Fin 10000) (q : Fin 64), y (ix2 r q) = Cert.SetConv.rowLinAt (M := 10000) x0 x1 x2 r q) (n : ℕ)
    (h0 : ∀ (r : Fin 10000) (k : Fin 64) (p : Fin M), p.val = n * 10000 + r.val → x0 (ix2 r k) = X (ix2 p k))
    (h1 : ∀ k q : Fin 64, x1 (ix2 k q) = W (ix2 k q))
    (h2 : ∀ q : Fin 64, x2 (ix2 (0 : Fin 1) q) = b (ix2 (0 : Fin 1) q))
    (j : S10000x64.Idx) (i : (⟨2, ![M, 64]⟩ : Shape).Idx) (hi0 : (i 0).val = n * 10000 + (j 0).val) (hi1 : (i 1).val = (j 1).val) :
    y j = Cert.SetConv.rowLin X W b i := by
  obtain ⟨r, q, rfl⟩ : ∃ (r : Fin 10000) (q : Fin 64), j = ix2 r q := ⟨j 0, j 1, eq_ix2 j⟩
  obtain ⟨p, q', rfl⟩ : ∃ (p : Fin M) (q' : Fin 64), i = ix2 p q' := ⟨i 0, i 1, eq_ix2 i⟩
  have hq : q' = q := Fin.ext hi1
  subst hq
  exact (hy r q').trans
    ((rowLinAt_congr x0 x1 x2 X W b r q' p q' (fun k => h0 r k p hi0) (fun k => h1 k q') (h2 q')).trans
      (Cert.SetConv.rowLin_apply X W b p q').symm)

/-- The even mix of two row blocks, entry by entry, is the even mix of the arrays they are blocks of. -/
theorem mix_rows {M : ℕ} (A0 A1 : (⟨2, ![M, 64]⟩ : Shape).Idx → EReal) (x0 x1 : S10000x64.Idx → EReal) (n : ℕ)
    (h0 : ∀ (r : Fin 10000) (k : Fin 64) (p : Fin M), p.val = n * 10000 + r.val → x0 (ix2 r k) = A0 (ix2 p k))
    (h1 : ∀ (r : Fin 10000) (k : Fin 64) (p : Fin M), p.val = n * 10000 + r.val → x1 (ix2 r k) = A1 (ix2 p k))
    (r : Fin 10000) (k : Fin 64) (p : Fin M) (hp : p.val = n * 10000 + r.val) :
    Cert.SetConv.mix x0 x1 (ix2 r k) = Cert.SetConv.mix A0 A1 (ix2 p k) := by
  rw [Cert.SetConv.mix_apply, Cert.SetConv.mix_apply, h0 r k p hp, h1 r k p hp]

section Blocks

-- the buffer contents a region finds when it is entered, on the extended reals: every statement below holds for any such contents
variable (V : (c : Dev nD) → (b : Ref sig .tc) → Buf (Elt Ideal) ((c : Thread nD τ).loc b))

/-- The zero offsets of a whole-buffer access, as the constant function. -/
theorem zeros2 : (![0, 0] : Fin 2 → Nat) = fun _ => 0 := funext fun a => by fin_cases a <;> rfl

/-! ## Region 0: the two affine row maps of the node features

The grid has 10 points. At point t the window over the 100000-row node features and the two output windows hold rows
10000·t … 10000·t + 9999 of their arrays; the two weight matrices and the two biases are held whole. -/

/-- Where each window sits at point t, decided over the grid: a window over a tall array at row block t, the
    weights and the bias at their one block. -/
theorem where0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ t.val < 10 :=
  (by decide +kernel : ∀ t : Fin grid0.N, _)

/-- Every one of the 10 row blocks is some point's. -/
theorem onto0 : ∀ n : Fin 10, ∃ t : Fin cfg0.N, t.val = n.val :=
  (by decide +kernel : ∀ n : Fin 10, ∃ t : Fin grid0.N, t.val = n.val)

/-- Row r of the block of the node features at point t is row 10000·t + r of the array. -/
theorem tall0_0_at (c : Dev nD) (t : Fin cfg0.N) (r : Fin 10000) (k : Fin 64) (p : Fin 100000)
    (hp : p.val = t.val * 10000 + r.val) :
    (iblk0 V c 0 t : Vec Ideal S10000x64 .f32) (ix2 r k) = (V c main_arg0 : S100000x64.Idx → EReal) (ix2 p k) := by
  obtain ⟨e0, e1, -, -, -, -, -, -, -, -, -, -, -, -, -⟩ := where0 t
  unfold iblk0
  rw [View.read_apply]
  show V c main_arg0 _ = V c main_arg0 _
  refine congrArg _ (funext fun a => Fin.ext ?_)
  match a with
  | ⟨0, _⟩ => show win0_0.index t (0 : Fin 2) * 10000 + 1 * r.val = p.val; omega
  | ⟨1, _⟩ => show win0_0.index t (1 : Fin 2) * 64 + 1 * k.val = k.val; omega

/-- The block of the first weights is the whole 64 × 64 array, at every point. -/
theorem wt0_1_at (c : Dev nD) (t : Fin cfg0.N) (k q : Fin 64) :
    (iblk0 V c 1 t : Vec Ideal S64x64 .f32) (ix2 k q) = (V c main_v0 : S64x64.Idx → EReal) (ix2 k q) := by
  obtain ⟨-, -, e0, e1, -, -, -, -, -, -, -, -, -, -, -⟩ := where0 t
  unfold iblk0
  rw [View.read_apply]
  show V c main_v0 _ = V c main_v0 _
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The block of the first bias is the whole one-row array, at every point. -/
theorem bias0_2_at (c : Dev nD) (t : Fin cfg0.N) (q : Fin 64) :
    (iblk0 V c 2 t : Vec Ideal S1x64 .f32) (ix2 (0 : Fin 1) q) = (V c main_v1 : S1x64.Idx → EReal) (ix2 (0 : Fin 1) q) := by
  obtain ⟨-, -, -, -, e0, e1, -, -, -, -, -, -, -, -, -⟩ := where0 t
  unfold iblk0
  rw [View.read_apply]
  show V c main_v1 _ = V c main_v1 _
  refine congrArg _ (funext fun a => Fin.ext ?_)
  match a with
  | ⟨0, _⟩ => show win0_2.index t (0 : Fin 2) * 1 + 1 * (0 : Fin 1).val = (0 : Fin 1).val; simp only [Fin.val_zero]; omega
  | ⟨1, _⟩ => show win0_2.index t (1 : Fin 2) * 64 + 1 * q.val = q.val; omega

/-- The block of the second weights is the whole 64 × 64 array, at every point. -/
theorem wt0_3_at (c : Dev nD) (t : Fin cfg0.N) (k q : Fin 64) :
    (iblk0 V c 3 t : Vec Ideal S64x64 .f32) (ix2 k q) = (V c main_v3 : S64x64.Idx → EReal) (ix2 k q) := by
  obtain ⟨-, -, -, -, -, -, e0, e1, -, -, -, -, -, -, -⟩ := where0 t
  unfold iblk0
  rw [View.read_apply]
  show V c main_v3 _ = V c main_v3 _
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- The block of the second bias is the whole one-row array, at every point. -/
theorem bias0_4_at (c : Dev nD) (t : Fin cfg0.N) (q : Fin 64) :
    (iblk0 V c 4 t : Vec Ideal S1x64 .f32) (ix2 (0 : Fin 1) q) = (V c main_v6 : S1x64.Idx → EReal) (ix2 (0 : Fin 1) q) := by
  obtain ⟨-, -, -, -, -, -, -, -, e0, e1, -, -, -, -, -⟩ := where0 t
  unfold iblk0
  rw [View.read_apply]
  show V c main_v6 _ = V c main_v6 _
  refine congrArg _ (funext fun a => Fin.ext ?_)
  match a with
  | ⟨0, _⟩ => show win0_4.index t (0 : Fin 2) * 1 + 1 * (0 : Fin 1).val = (0 : Fin 1).val; simp only [Fin.val_zero]; omega
  | ⟨1, _⟩ => show win0_4.index t (1 : Fin 2) * 64 + 1 * q.val = q.val; omega

/-- What point t writes back through the first output window is block t of the affine row map of the whole arrays:
    entry (r, q) of the stored block is entry (10000·t + r, q) of the array, which reads row 10000·t + r of the node
    features — row r of the block the point holds — and the whole of the weights and the bias. -/
theorem lin1_block (c : Dev nD) (t : Fin cfg0.N) :
    (dat0 V c).flushed 5 t = ((cfg0.win 5).blk t).view.read (Elt Ideal)
      (Cert.SetConv.rowLin (M := 100000) (V c main_arg0) (V c main_v0) (V c main_v1)) := by
  show (cfg0.win 5).cut (grid0.coords t) ((dat0 V c).after 5 t) = _
  rw [after0_5]
  unfold out0_5
  rw [View.canon_unit_zero zeros2]
  simp only [View.ld_unit_zero (S := S10000x64) zeros2, View.ld_unit_zero (S := S64x64) zeros2, View.ld_unit_zero (S := S1x64) zeros2]
  obtain ⟨-, -, -, -, -, -, -, -, -, -, e0, e1, -, -, -⟩ := where0 t
  funext j
  show k0_pay2 (iblk0 V c 0 t) (iblk0 V c 1 t) (iblk0 V c 2 t) j
    = Cert.SetConv.rowLin (M := 100000) (V c main_arg0) (V c main_v0) (V c main_v1) (((cfg0.win 5).blk t).view.emb j)
  exact entry_of_blocks (M := 100000) (V c main_arg0) (V c main_v0) (V c main_v1) (iblk0 V c 0 t) (iblk0 V c 1 t) (iblk0 V c 2 t) _
    (lin1_at (iblk0 V c 0 t) (iblk0 V c 1 t) (iblk0 V c 2 t)) t.val
    (fun r k p hp => tall0_0_at V c t r k p hp) (wt0_1_at V c t) (bias0_2_at V c t) j _
    (by show win0_5.index t (0 : Fin 2) * 10000 + 1 * (j 0).val = _; omega)
    (by show win0_5.index t (1 : Fin 2) * 64 + 1 * (j 1).val = _; omega)

/-- An index of the 100000-row array is in point t's block of the first output iff each coordinate is in the block's range on its
    axis: rows 10000·t … 10000·t + 9999, all 64 columns. -/
theorem mem_blk0_5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v7_0).slice (win0_5.rect t)).set ↔ _
  rw [View.set_slice_whole, Rect.mem_set_unit]
  exact Iff.rfl

/-- Every index of the array is in the block of the point its row number divided by 10000 names, and that point
    writes back. -/
theorem rows_cover0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := onto0 ⟨(i 0).val / 10000, by omega⟩
  have ht' : t.val = (i 0).val / 10000 := ht
  obtain ⟨-, -, -, -, -, -, -, -, -, -, e0, e1, -, -, -⟩ := where0 t
  refine ⟨t, flush0_5 t, ?_⟩
  rw [mem_blk0_5]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- REGION 0, FIRST OUTPUT: the array the region leaves is the affine row map of the node features by the first
    weights and bias. -/
theorem lin1_rows (c : Dev nD) :
    (dat0 V c).arrAt 5 cfg0.N = Cert.SetConv.rowLin (M := 100000) (V c main_arg0) (V c main_v0) (V c main_v1) :=
  (dat0 V c).arrAt_eq_of_cover 5 _ (fun t _ => lin1_block V c t) rows_cover0_5

/-- What point t writes back through the second output window is block t of the affine row map of the node features
    by the second weights and bias. -/
theorem xab_block (c : Dev nD) (t : Fin cfg0.N) :
    (dat0 V c).flushed 6 t = ((cfg0.win 6).blk t).view.read (Elt Ideal)
      (Cert.SetConv.rowLin (M := 100000) (V c main_arg0) (V c main_v3) (V c main_v6)) := by
  show (cfg0.win 6).cut (grid0.coords t) ((dat0 V c).after 6 t) = _
  rw [after0_6]
  unfold out0_6
  rw [View.canon_unit_zero zeros2]
  simp only [View.ld_unit_zero (S := S10000x64) zeros2, View.ld_unit_zero (S := S64x64) zeros2, View.ld_unit_zero (S := S1x64) zeros2]
  obtain ⟨-, -, -, -, -, -, -, -, -, -, -, -, e0, e1, -⟩ := where0 t
  funext j
  show k0_pay3 (iblk0 V c 0 t) (iblk0 V c 3 t) (iblk0 V c 4 t) j
    = Cert.SetConv.rowLin (M := 100000) (V c main_arg0) (V c main_v3) (V c main_v6) (((cfg0.win 6).blk t).view.emb j)
  exact entry_of_blocks (M := 100000) (V c main_arg0) (V c main_v3) (V c main_v6) (iblk0 V c 0 t) (iblk0 V c 3 t) (iblk0 V c 4 t) _
    (xab_at (iblk0 V c 0 t) (iblk0 V c 3 t) (iblk0 V c 4 t)) t.val
    (fun r k p hp => tall0_0_at V c t r k p hp) (wt0_3_at V c t) (bias0_4_at V c t) j _
    (by show win0_6.index t (0 : Fin 2) * 10000 + 1 * (j 0).val = _; omega)
    (by show win0_6.index t (1 : Fin 2) * 64 + 1 * (j 1).val = _; omega)

/-- An index of the 100000-row array is in point t's block of the second output iff each coordinate is in the block's range on its
    axis: rows 10000·t … 10000·t + 9999, all 64 columns. -/
theorem mem_blk0_6 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v7_1).slice (win0_6.rect t)).set ↔ _
  rw [View.set_slice_whole, Rect.mem_set_unit]
  exact Iff.rfl

/-- Every index of the array is in the block of the point its row number divided by 10000 names, and that point
    writes back. -/
theorem rows_cover0_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := onto0 ⟨(i 0).val / 10000, by omega⟩
  have ht' : t.val = (i 0).val / 10000 := ht
  obtain ⟨-, -, -, -, -, -, -, -, -, -, -, -, e0, e1, -⟩ := where0 t
  refine ⟨t, flush0_6 t, ?_⟩
  rw [mem_blk0_6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- REGION 0, SECOND OUTPUT: the array the region leaves is the affine row map of the node features by the second
    weights and bias. -/
theorem xab_rows (c : Dev nD) :
    (dat0 V c).arrAt 6 cfg0.N = Cert.SetConv.rowLin (M := 100000) (V c main_arg0) (V c main_v3) (V c main_v6) :=
  (dat0 V c).arrAt_eq_of_cover 6 _ (fun t _ => xab_block V c t) rows_cover0_6

/-! ## Region 1: the affine row map of the hyperedge features

The grid has 2 points. At point t the window over the 20000-row input and the output window hold rows
10000·t … 10000·t + 9999; the weights and the bias are held whole. -/

/-- Where each window sits at point t, decided over the grid: a window over a tall array at row block t, the
    weights and the bias at their one block. -/
theorem where1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ t.val < 2 :=
  (by decide +kernel : ∀ t : Fin grid1.N, _)

/-- Every one of the 2 row blocks is some point's. -/
theorem onto1 : ∀ n : Fin 2, ∃ t : Fin cfg1.N, t.val = n.val :=
  (by decide +kernel : ∀ n : Fin 2, ∃ t : Fin grid1.N, t.val = n.val)

/-- Row r of the block of the 20000-row input at point t is row 10000·t + r of the array. -/
theorem tall1_0_at (c : Dev nD) (t : Fin cfg1.N) (r : Fin 10000) (k : Fin 64) (p : Fin 20000)
    (hp : p.val = t.val * 10000 + r.val) :
    (iblk1 V c 0 t : Vec Ideal S10000x64 .f32) (ix2 r k) = (V c main_v17 : S20000x64.Idx → EReal) (ix2 p k) := by
  obtain ⟨e0, e1, -, -, -, -, -, -, -⟩ := where1 t
  unfold iblk1
  rw [View.read_apply]
  show V c main_v17 _ = V c main_v17 _
  refine congrArg _ (funext fun a => Fin.ext ?_)
  match a with
  | ⟨0, _⟩ => show win1_0.index t (0 : Fin 2) * 10000 + 1 * r.val = p.val; omega
  | ⟨1, _⟩ => show win1_0.index t (1 : Fin 2) * 64 + 1 * k.val = k.val; omega

/-- The block of the weights is the whole 64 × 64 array, at every point. -/
theorem wt1_1_at (c : Dev nD) (t : Fin cfg1.N) (k q : Fin 64) :
    (iblk1 V c 1 t : Vec Ideal S64x64 .f32) (ix2 k q) = (V c main_v5 : S64x64.Idx → EReal) (ix2 k q) := by
  obtain ⟨-, -, e0, e1, -, -, -, -, -⟩ := where1 t
  unfold iblk1
  rw [View.read_apply]
  show V c main_v5 _ = V c main_v5 _
  refine congrArg _ (funext fun a => Fin.ext ?_)
  match a with
  | ⟨0, _⟩ => show win1_1.index t (0 : Fin 2) * 64 + 1 * k.val = k.val; omega
  | ⟨1, _⟩ => show win1_1.index t (1 : Fin 2) * 64 + 1 * q.val = q.val; omega

/-- The block of the bias is the whole one-row array, at every point. -/
theorem bias1_2_at (c : Dev nD) (t : Fin cfg1.N) (q : Fin 64) :
    (iblk1 V c 2 t : Vec Ideal S1x64 .f32) (ix2 (0 : Fin 1) q) = (V c main_v18 : S1x64.Idx → EReal) (ix2 (0 : Fin 1) q) := by
  obtain ⟨-, -, -, -, e0, e1, -, -, -⟩ := where1 t
  unfold iblk1
  rw [View.read_apply]
  show V c main_v18 _ = V c main_v18 _
  refine congrArg _ (funext fun a => Fin.ext ?_)
  match a with
  | ⟨0, _⟩ => show win1_2.index t (0 : Fin 2) * 1 + 1 * (0 : Fin 1).val = (0 : Fin 1).val; simp only [Fin.val_zero]; omega
  | ⟨1, _⟩ => show win1_2.index t (1 : Fin 2) * 64 + 1 * q.val = q.val; omega

/-- What point t writes back is block t of the affine row map of the whole arrays. -/
theorem xeb_block (c : Dev nD) (t : Fin cfg1.N) :
    (dat1 V c).flushed 3 t = ((cfg1.win 3).blk t).view.read (Elt Ideal)
      (Cert.SetConv.rowLin (M := 20000) (V c main_v17) (V c main_v5) (V c main_v18)) := by
  show (cfg1.win 3).cut (grid1.coords t) ((dat1 V c).after 3 t) = _
  rw [after1_3]
  unfold out1_3
  rw [View.canon_unit_zero zeros2]
  simp only [View.ld_unit_zero (S := S10000x64) zeros2, View.ld_unit_zero (S := S64x64) zeros2, View.ld_unit_zero (S := S1x64) zeros2]
  obtain ⟨-, -, -, -, -, -, e0, e1, -⟩ := where1 t
  funext j
  show k1_pay1 (iblk1 V c 0 t) (iblk1 V c 1 t) (iblk1 V c 2 t) j
    = Cert.SetConv.rowLin (M := 20000) (V c main_v17) (V c main_v5) (V c main_v18) (((cfg1.win 3).blk t).view.emb j)
  exact entry_of_blocks (M := 20000) (V c main_v17) (V c main_v5) (V c main_v18) (iblk1 V c 0 t) (iblk1 V c 1 t) (iblk1 V c 2 t) _
    (xeb_at (iblk1 V c 0 t) (iblk1 V c 1 t) (iblk1 V c 2 t)) t.val
    (fun r k p hp => tall1_0_at V c t r k p hp) (wt1_1_at V c t) (bias1_2_at V c t) j _
    (by show win1_3.index t (0 : Fin 2) * 10000 + 1 * (j 0).val = _; omega)
    (by show win1_3.index t (1 : Fin 2) * 64 + 1 * (j 1).val = _; omega)

/-- An index of the 20000-row array is in point t's block of the output iff each coordinate is in the block's range on its
    axis: rows 10000·t … 10000·t + 9999, all 64 columns. -/
theorem mem_blk1_3 (t : Fin cfg1.N) (i : S20000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v19).slice (win1_3.rect t)).set ↔ _
  rw [View.set_slice_whole, Rect.mem_set_unit]
  exact Iff.rfl

/-- Every index of the array is in the block of the point its row number divided by 10000 names, and that point
    writes back. -/
theorem rows_cover1_3 (i : S20000x64.Idx) :
    ∃ t : Fin cfg1.N, (cfg1.win 3).flush t = true ∧ i ∈ ((cfg1.win 3).blk t).view.set := by
  have hi0 : (i 0).val < 20000 := (i 0).isLt
  have hi1 : (i 1).val < 64 := (i 1).isLt
  obtain ⟨t, ht⟩ := onto1 ⟨(i 0).val / 10000, by omega⟩
  have ht' : t.val = (i 0).val / 10000 := ht
  obtain ⟨-, -, -, -, -, -, e0, e1, -⟩ := where1 t
  refine ⟨t, flush1_3 t, ?_⟩
  rw [mem_blk1_3]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- REGION 1: the array the region leaves is the affine row map of its 20000-row input by its weights and bias. -/
theorem xeb_rows (c : Dev nD) :
    (dat1 V c).arrAt 3 cfg1.N = Cert.SetConv.rowLin (M := 20000) (V c main_v17) (V c main_v5) (V c main_v18) :=
  (dat1 V c).arrAt_eq_of_cover 3 _ (fun t _ => xeb_block V c t) rows_cover1_3

/-! ## Region 2: the affine row map of the even mix of two arrays

The grid has 10 points. At point t the windows over the two 100000-row inputs and the output window hold rows
10000·t … 10000·t + 9999; the weights and the bias are held whole. The mix is entry by entry, so the mix of two row
blocks is the row block of the mix. -/

/-- Where each window sits at point t, decided over the grid: a window over a tall array at row block t, the
    weights and the bias at their one block. -/
theorem where2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ t.val < 10 :=
  (by decide +kernel : ∀ t : Fin grid2.N, _)

/-- Every one of the 10 row blocks is some point's. -/
theorem onto2 : ∀ n : Fin 10, ∃ t : Fin cfg2.N, t.val = n.val :=
  (by decide +kernel : ∀ n : Fin 10, ∃ t : Fin grid2.N, t.val = n.val)

/-- Row r of the block of the first 100000-row input at point t is row 10000·t + r of the array. -/
theorem tall2_0_at (c : Dev nD) (t : Fin cfg2.N) (r : Fin 10000) (k : Fin 64) (p : Fin 100000)
    (hp : p.val = t.val * 10000 + r.val) :
    (iblk2 V c 0 t : Vec Ideal S10000x64 .f32) (ix2 r k) = (V c main_v37 : S100000x64.Idx → EReal) (ix2 p k) := by
  obtain ⟨e0, e1, -, -, -, -, -, -, -, -, -⟩ := where2 t
  unfold iblk2
  rw [View.read_apply]
  show V c main_v37 _ = V c main_v37 _
  refine congrArg _ (funext fun a => Fin.ext ?_)
  match a with
  | ⟨0, _⟩ => show win2_0.index t (0 : Fin 2) * 10000 + 1 * r.val = p.val; omega
  | ⟨1, _⟩ => show win2_0.index t (1 : Fin 2) * 64 + 1 * k.val = k.val; omega

/-- Row r of the block of the second 100000-row input at point t is row 10000·t + r of the array. -/
theorem tall2_1_at (c : Dev nD) (t : Fin cfg2.N) (r : Fin 10000) (k : Fin 64) (p : Fin 100000)
    (hp : p.val = t.val * 10000 + r.val) :
    (iblk2 V c 1 t : Vec Ideal S10000x64 .f32) (ix2 r k) = (V c main_arg1 : S100000x64.Idx → EReal) (ix2 p k) := by
  obtain ⟨-, -, e0, e1, -, -, -, -, -, -, -⟩ := where2 t
  unfold iblk2
  rw [View.read_apply]
  show V c main_arg1 _ = V c main_arg1 _
  refine congrArg _ (funext fun a => Fin.ext ?_)
  match a with
  | ⟨0, _⟩ => show win2_1.index t (0 : Fin 2) * 10000 + 1 * r.val = p.val; omega
  | ⟨1, _⟩ => show win2_1.index t (1 : Fin 2) * 64 + 1 * k.val = k.val; omega

/-- The block of the weights is the whole 64 × 64 array, at every point. -/
theorem wt2_2_at (c : Dev nD) (t : Fin cfg2.N) (k q : Fin 64) :
    (iblk2 V c 2 t : Vec Ideal S64x64 .f32) (ix2 k q) = (V c main_v38 : S64x64.Idx → EReal) (ix2 k q) := by
  obtain ⟨-, -, -, -, e0, e1, -, -, -, -, -⟩ := where2 t
  unfold iblk2
  rw [View.read_apply]
  show V c main_v38 _ = V c main_v38 _
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The block of the bias is the whole one-row array, at every point. -/
theorem bias2_3_at (c : Dev nD) (t : Fin cfg2.N) (q : Fin 64) :
    (iblk2 V c 3 t : Vec Ideal S1x64 .f32) (ix2 (0 : Fin 1) q) = (V c main_v39 : S1x64.Idx → EReal) (ix2 (0 : Fin 1) q) := by
  obtain ⟨-, -, -, -, -, -, e0, e1, -, -, -⟩ := where2 t
  unfold iblk2
  rw [View.read_apply]
  show V c main_v39 _ = V c main_v39 _
  refine congrArg _ (funext fun a => Fin.ext ?_)
  match a with
  | ⟨0, _⟩ => show win2_3.index t (0 : Fin 2) * 1 + 1 * (0 : Fin 1).val = (0 : Fin 1).val; simp only [Fin.val_zero]; omega
  | ⟨1, _⟩ => show win2_3.index t (1 : Fin 2) * 64 + 1 * q.val = q.val; omega

/-- What point t writes back is block t of the affine row map of the even mix of the two whole arrays. -/
theorem out_block (c : Dev nD) (t : Fin cfg2.N) :
    (dat2 V c).flushed 4 t = ((cfg2.win 4).blk t).view.read (Elt Ideal)
      (Cert.SetConv.rowLin (M := 100000) (Cert.SetConv.mix (V c main_v37) (V c main_arg1)) (V c main_v38) (V c main_v39)) := by
  show (cfg2.win 4).cut (grid2.coords t) ((dat2 V c).after 4 t) = _
  rw [after2_4]
  unfold out2_4
  rw [View.canon_unit_zero zeros2]
  simp only [View.ld_unit_zero (S := S10000x64) zeros2, View.ld_unit_zero (S := S64x64) zeros2, View.ld_unit_zero (S := S1x64) zeros2]
  obtain ⟨-, -, -, -, -, -, -, -, e0, e1, -⟩ := where2 t
  funext j
  show k2_pay1 (iblk2 V c 0 t) (iblk2 V c 1 t) (iblk2 V c 2 t) (iblk2 V c 3 t) j
    = Cert.SetConv.rowLin (M := 100000) (Cert.SetConv.mix (V c main_v37) (V c main_arg1)) (V c main_v38) (V c main_v39) (((cfg2.win 4).blk t).view.emb j)
  exact entry_of_blocks (M := 100000) (Cert.SetConv.mix (V c main_v37) (V c main_arg1)) (V c main_v38) (V c main_v39) (Cert.SetConv.mix (iblk2 V c 0 t) (iblk2 V c 1 t)) (iblk2 V c 2 t) (iblk2 V c 3 t) _
    (out_at (iblk2 V c 0 t) (iblk2 V c 1 t) (iblk2 V c 2 t) (iblk2 V c 3 t)) t.val
    (mix_rows (M := 100000) (V c main_v37) (V c main_arg1) _ _ t.val (fun r k p hp => tall2_0_at V c t r k p hp) (fun r k p hp => tall2_1_at V c t r k p hp)) (wt2_2_at V c t) (bias2_3_at V c t) j _
    (by show win2_4.index t (0 : Fin 2) * 10000 + 1 * (j 0).val = _; omega)
    (by show win2_4.index t (1 : Fin 2) * 64 + 1 * (j 1).val = _; omega)

/-- An index of the 100000-row array is in point t's block of the output iff each coordinate is in the block's range on its
    axis: rows 10000·t … 10000·t + 9999, all 64 columns. -/
theorem mem_blk2_4 (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v40).slice (win2_4.rect t)).set ↔ _
  rw [View.set_slice_whole, Rect.mem_set_unit]
  exact Iff.rfl

/-- Every index of the array is in the block of the point its row number divided by 10000 names, and that point
    writes back. -/
theorem rows_cover2_4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := onto2 ⟨(i 0).val / 10000, by omega⟩
  have ht' : t.val = (i 0).val / 10000 := ht
  obtain ⟨-, -, -, -, -, -, -, -, e0, e1, -⟩ := where2 t
  refine ⟨t, flush2_4 t, ?_⟩
  rw [mem_blk2_4]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- REGION 2: the array the region leaves is the affine row map, by its weights and bias, of the even mix of its two
    100000-row inputs. -/
theorem out_rows (c : Dev nD) :
    (dat2 V c).arrAt 4 cfg2.N = Cert.SetConv.rowLin (M := 100000) (Cert.SetConv.mix (V c main_v37) (V c main_arg1)) (V c main_v38) (V c main_v39) :=
  (dat2 V c).arrAt_eq_of_cover 4 _ (fun t _ => out_block V c t) rows_cover2_4

end Blocks

end Cert.KernelIdeal.Rows

end
-- ==== Proof.KernelStages.lean ====
/-
  What the idealized kernel's two result buffers hold, as functions of the launched argument arrays.

  The run's last boundary is a fold: three stretches of host operations alternate with three launches, each launch
  leaving its output array at an affine row map of the arrays it found. Read back through the fold, the hyperedge
  sums are the first layer's rows gathered by node and added up per hyperedge, and the result is the last layer
  applied to the even mix of the second input with: degree times the node's own second-layer row, plus the
  hyperedge rows (through the second layer's other half) gathered by hyperedge and added up per node.
-/
import proofs.«144145_j50233937494095_2_alg».proof.Proof.Gen.KernelIdeal.Frame
import proofs.«144145_j50233937494095_2_alg».proof.Proof.Spec
import proofs.«144145_j50233937494095_2_alg».proof.Proof.RegionRows
import Idealize.ShloMosaic.Lib.StableHlo.Run
import Idealize.ShloMosaic.Lib.ValueLayout
import Idealize.ShloMosaic.PureOps.Ideal.Laws

set_option maxRecDepth 16384

noncomputable section

namespace Cert.KernelIdeal.Stages

open Cert.KernelIdeal Cert.KernelIdeal.Gen Cert.SetConv
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The host operations around the launches, as functions -/

/-- The column of start indices a gather by node reads: a negative index wrapped by the node count. -/
def wrapV (x2 : IVec S1000000 32) : IVec S1000000x1 32 :=
  broadcastInDim S1000000x1 ![0] bcast_S1000000_S1000000x1_0
    (select (cmpi .slt x2 (broadcastInDim S1000000 ![] bcast_S_S1000000 (constantI S_ 32 0#32)))
      (addi x2 (broadcastInDim S1000000 ![] bcast_S_S1000000 (constantI S_ 32 100000#32))) x2)

/-- The column of start indices a gather by hyperedge reads: a negative index wrapped by the hyperedge count. -/
def wrapE (x3 : IVec S1000000 32) : IVec S1000000x1 32 :=
  broadcastInDim S1000000x1 ![0] bcast_S1000000_S1000000x1_0
    (select (cmpi .slt x3 (broadcastInDim S1000000 ![] bcast_S_S1000000 (constantI S_ 32 0#32)))
      (addi x3 (broadcastInDim S1000000 ![] bcast_S_S1000000 (constantI S_ 32 20000#32))) x3)

/-- An index list laid as a column, as a scatter reads it (no wrap: an index outside the range drops its update). -/
def col (x : IVec S1000000 32) : IVec S1000000x1 32 :=
  broadcastInDim S1000000x1 ![0] bcast_S1000000_S1000000x1_0 x

/-- The hyperedge sums: the rows of `lin1` gathered by node, added up per hyperedge. -/
def edgeSums (lin1 : FVec Ideal S100000x64 .f32) (x2 x3 : IVec S1000000 32) : FVec Ideal S20000x64 .f32 :=
  Host.scatterAdd (F := Ideal) scatter_S20000x64_S1000000x1_S1000000x64_1_0_0_1
    (broadcastInDim S20000x64 ![] bcast_S_S20000x64 (constant (F := Ideal) S_ .f32 0x00000000#32)) (col x3)
    (Host.gather gather_S100000x64_S1000000x1_S1000000x64_1_0_n_n_0_1_164 lin1 (wrapV x2))

/-- The node degrees: a one added per incidence at its node. -/
def degree (x2 : IVec S1000000 32) : FVec Ideal S100000 .f32 :=
  Host.scatterAdd (F := Ideal) scatter_S100000_S1000000x1_S1000000_n_0_0_1
    (broadcastInDim S100000 ![] bcast_S_S100000 (constant (F := Ideal) S_ .f32 0x00000000#32)) (col x2)
    (broadcastInDim S1000000 ![] bcast_S_S1000000 (constant (F := Ideal) S_ .f32 0x3F800000#32))

/-- The node sums as the kernel forms them: degree times the node's own affine row, plus the hyperedge rows gathered
    by hyperedge and added up per node. -/
def nodeSums (xab : FVec Ideal S100000x64 .f32) (xeb : FVec Ideal S20000x64 .f32) (x2 x3 : IVec S1000000 32) :
    FVec Ideal S100000x64 .f32 :=
  addf
    (mulf (broadcastInDim S100000x64 ![0, 1] bcast_S100000x1_S100000x64_0_1
      (broadcastInDim S100000x1 ![0] bcast_S100000_S100000x1_0 (degree x2))) xab)
    (Host.scatterAdd (F := Ideal) scatter_S100000x64_S1000000x1_S1000000x64_1_0_0_1
      (broadcastInDim S100000x64 ![] bcast_S_S100000x64 (constant (F := Ideal) S_ .f32 0x00000000#32)) (col x2)
      (Host.gather gather_S20000x64_S1000000x1_S1000000x64_1_0_n_n_0_1_164 xeb (wrapE x3)))

/-! ## Buffers no stretch and no launch writes keep their contents -/

theorem w1_main_arg0 (c : Dev nD) : W1 (F := Ideal) m ρ c (Proc.devRef .tc main_arg0) = m ((c : Thread nD τ).loc main_arg0) := by
  show StableHlo.after hostOps0 (W0 m ρ c) (Proc.devRef .tc main_arg0) = _
  after_results
theorem w1_main_arg1 (c : Dev nD) : W1 (F := Ideal) m ρ c (Proc.devRef .tc main_arg1) = m ((c : Thread nD τ).loc main_arg1) := by
  show StableHlo.after hostOps0 (W0 m ρ c) (Proc.devRef .tc main_arg1) = _
  after_results
theorem w1_main_arg2 (c : Dev nD) : W1 (F := Ideal) m ρ c (Proc.devRef .tc main_arg2) = m ((c : Thread nD τ).loc main_arg2) := by
  show StableHlo.after hostOps0 (W0 m ρ c) (Proc.devRef .tc main_arg2) = _
  after_results
theorem w1_main_arg3 (c : Dev nD) : W1 (F := Ideal) m ρ c (Proc.devRef .tc main_arg3) = m ((c : Thread nD τ).loc main_arg3) := by
  show StableHlo.after hostOps0 (W0 m ρ c) (Proc.devRef .tc main_arg3) = _
  after_results
theorem w1_main_arg8 (c : Dev nD) : W1 (F := Ideal) m ρ c (Proc.devRef .tc main_arg8) = m ((c : Thread nD τ).loc main_arg8) := by
  show StableHlo.after hostOps0 (W0 m ρ c) (Proc.devRef .tc main_arg8) = _
  after_results
theorem w1_main_arg9 (c : Dev nD) : W1 (F := Ideal) m ρ c (Proc.devRef .tc main_arg9) = m ((c : Thread nD τ).loc main_arg9) := by
  show StableHlo.after hostOps0 (W0 m ρ c) (Proc.devRef .tc main_arg9) = _
  after_results
theorem w2_main_arg1 (c : Dev nD) : W2 (F := Ideal) m ρ c (Proc.devRef .tc main_arg1) = W1 m ρ c (Proc.devRef .tc main_arg1) :=
  W2_of_ne m ρ c main_arg1 (by decide)
theorem w2_main_arg2 (c : Dev nD) : W2 (F := Ideal) m ρ c (Proc.devRef .tc main_arg2) = W1 m ρ c (Proc.devRef .tc main_arg2) :=
  W2_of_ne m ρ c main_arg2 (by decide)
theorem w2_main_arg3 (c : Dev nD) : W2 (F := Ideal) m ρ c (Proc.devRef .tc main_arg3) = W1 m ρ c (Proc.devRef .tc main_arg3) :=
  W2_of_ne m ρ c main_arg3 (by decide)
theorem w2_main_arg8 (c : Dev nD) : W2 (F := Ideal) m ρ c (Proc.devRef .tc main_arg8) = W1 m ρ c (Proc.devRef .tc main_arg8) :=
  W2_of_ne m ρ c main_arg8 (by decide)
theorem w2_main_arg9 (c : Dev nD) : W2 (F := Ideal) m ρ c (Proc.devRef .tc main_arg9) = W1 m ρ c (Proc.devRef .tc main_arg9) :=
  W2_of_ne m ρ c main_arg9 (by decide)
theorem w2_main_v5 (c : Dev nD) : W2 (F := Ideal) m ρ c (Proc.devRef .tc main_v5) = W1 m ρ c (Proc.devRef .tc main_v5) :=
  W2_of_ne m ρ c main_v5 (by decide)
theorem w3_main_arg1 (c : Dev nD) : W3 (F := Ideal) m ρ c (Proc.devRef .tc main_arg1) = W2 m ρ c (Proc.devRef .tc main_arg1) := by
  show StableHlo.after hostOps1 (W2 m ρ c) (Proc.devRef .tc main_arg1) = _
  after_results
theorem w3_main_arg2 (c : Dev nD) : W3 (F := Ideal) m ρ c (Proc.devRef .tc main_arg2) = W2 m ρ c (Proc.devRef .tc main_arg2) := by
  show StableHlo.after hostOps1 (W2 m ρ c) (Proc.devRef .tc main_arg2) = _
  after_results
theorem w3_main_arg3 (c : Dev nD) : W3 (F := Ideal) m ρ c (Proc.devRef .tc main_arg3) = W2 m ρ c (Proc.devRef .tc main_arg3) := by
  show StableHlo.after hostOps1 (W2 m ρ c) (Proc.devRef .tc main_arg3) = _
  after_results
theorem w3_main_arg8 (c : Dev nD) : W3 (F := Ideal) m ρ c (Proc.devRef .tc main_arg8) = W2 m ρ c (Proc.devRef .tc main_arg8) := by
  show StableHlo.after hostOps1 (W2 m ρ c) (Proc.devRef .tc main_arg8) = _
  after_results
theorem w3_main_arg9 (c : Dev nD) : W3 (F := Ideal) m ρ c (Proc.devRef .tc main_arg9) = W2 m ρ c (Proc.devRef .tc main_arg9) := by
  show StableHlo.after hostOps1 (W2 m ρ c) (Proc.devRef .tc main_arg9) = _
  after_results
theorem w3_main_v5 (c : Dev nD) : W3 (F := Ideal) m ρ c (Proc.devRef .tc main_v5) = W2 m ρ c (Proc.devRef .tc main_v5) := by
  show StableHlo.after hostOps1 (W2 m ρ c) (Proc.devRef .tc main_v5) = _
  after_results
theorem w3_main_v7_1 (c : Dev nD) : W3 (F := Ideal) m ρ c (Proc.devRef .tc main_v7_1) = W2 m ρ c (Proc.devRef .tc main_v7_1) := by
  show StableHlo.after hostOps1 (W2 m ρ c) (Proc.devRef .tc main_v7_1) = _
  after_results
theorem w4_main_arg1 (c : Dev nD) : W4 (F := Ideal) m ρ c (Proc.devRef .tc main_arg1) = W3 m ρ c (Proc.devRef .tc main_arg1) :=
  W4_of_ne m ρ c main_arg1 (by decide)
theorem w4_main_arg2 (c : Dev nD) : W4 (F := Ideal) m ρ c (Proc.devRef .tc main_arg2) = W3 m ρ c (Proc.devRef .tc main_arg2) :=
  W4_of_ne m ρ c main_arg2 (by decide)
theorem w4_main_arg3 (c : Dev nD) : W4 (F := Ideal) m ρ c (Proc.devRef .tc main_arg3) = W3 m ρ c (Proc.devRef .tc main_arg3) :=
  W4_of_ne m ρ c main_arg3 (by decide)
theorem w4_main_arg8 (c : Dev nD) : W4 (F := Ideal) m ρ c (Proc.devRef .tc main_arg8) = W3 m ρ c (Proc.devRef .tc main_arg8) :=
  W4_of_ne m ρ c main_arg8 (by decide)
theorem w4_main_arg9 (c : Dev nD) : W4 (F := Ideal) m ρ c (Proc.devRef .tc main_arg9) = W3 m ρ c (Proc.devRef .tc main_arg9) :=
  W4_of_ne m ρ c main_arg9 (by decide)
theorem w4_main_v7_1 (c : Dev nD) : W4 (F := Ideal) m ρ c (Proc.devRef .tc main_v7_1) = W3 m ρ c (Proc.devRef .tc main_v7_1) :=
  W4_of_ne m ρ c main_v7_1 (by decide)
theorem at4_main_arg1 (c : Dev nD) : W4 (F := Ideal) m ρ c (Proc.devRef .tc main_arg1) = m ((c : Thread nD τ).loc main_arg1) :=
  (w4_main_arg1 m ρ c).trans ((w3_main_arg1 m ρ c).trans ((w2_main_arg1 m ρ c).trans (w1_main_arg1 m ρ c)))
theorem at4_main_arg2 (c : Dev nD) : W4 (F := Ideal) m ρ c (Proc.devRef .tc main_arg2) = m ((c : Thread nD τ).loc main_arg2) :=
  (w4_main_arg2 m ρ c).trans ((w3_main_arg2 m ρ c).trans ((w2_main_arg2 m ρ c).trans (w1_main_arg2 m ρ c)))
theorem at4_main_arg3 (c : Dev nD) : W4 (F := Ideal) m ρ c (Proc.devRef .tc main_arg3) = m ((c : Thread nD τ).loc main_arg3) :=
  (w4_main_arg3 m ρ c).trans ((w3_main_arg3 m ρ c).trans ((w2_main_arg3 m ρ c).trans (w1_main_arg3 m ρ c)))
theorem at4_main_arg8 (c : Dev nD) : W4 (F := Ideal) m ρ c (Proc.devRef .tc main_arg8) = m ((c : Thread nD τ).loc main_arg8) :=
  (w4_main_arg8 m ρ c).trans ((w3_main_arg8 m ρ c).trans ((w2_main_arg8 m ρ c).trans (w1_main_arg8 m ρ c)))
theorem at4_main_arg9 (c : Dev nD) : W4 (F := Ideal) m ρ c (Proc.devRef .tc main_arg9) = m ((c : Thread nD τ).loc main_arg9) :=
  (w4_main_arg9 m ρ c).trans ((w3_main_arg9 m ρ c).trans ((w2_main_arg9 m ρ c).trans (w1_main_arg9 m ρ c)))
theorem at2_main_arg2 (c : Dev nD) : W2 (F := Ideal) m ρ c (Proc.devRef .tc main_arg2) = m ((c : Thread nD τ).loc main_arg2) :=
  (w2_main_arg2 m ρ c).trans (w1_main_arg2 m ρ c)
theorem at2_main_arg3 (c : Dev nD) : W2 (F := Ideal) m ρ c (Proc.devRef .tc main_arg3) = m ((c : Thread nD τ).loc main_arg3) :=
  (w2_main_arg3 m ρ c).trans (w1_main_arg3 m ρ c)
theorem w5_main_arg1 (c : Dev nD) : W5 (F := Ideal) m ρ c (Proc.devRef .tc main_arg1) = W4 m ρ c (Proc.devRef .tc main_arg1) := by
  show StableHlo.after hostOps2 (W4 m ρ c) (Proc.devRef .tc main_arg1) = _
  after_results_simp

/-! ## The stretches' results -/

/-- After the second stretch the hyperedge sums are in place: the first launch's first output gathered by node and
    added up per hyperedge. -/
theorem stage_edgeSums (c : Dev nD) : W3 (F := Ideal) m ρ c (Proc.devRef .tc main_v17)
    = edgeSums (W2 m ρ c (Proc.devRef .tc main_v7_0)) (W2 m ρ c (Proc.devRef .tc main_arg2)) (W2 m ρ c (Proc.devRef .tc main_arg3)) := by
  show StableHlo.after hostOps1 (W2 m ρ c) (Proc.devRef .tc main_v17) = _
  after_results
  rfl

set_option maxHeartbeats 1000000 in
/-- After the third stretch the node sums are in place. -/
theorem stage_nodeSums (c : Dev nD) : W5 (F := Ideal) m ρ c (Proc.devRef .tc main_v37)
    = nodeSums (W4 m ρ c (Proc.devRef .tc main_v7_1)) (W4 m ρ c (Proc.devRef .tc main_v19)) (W4 m ρ c (Proc.devRef .tc main_arg2)) (W4 m ρ c (Proc.devRef .tc main_arg3)) := by
  unfold nodeSums degree col wrapE
  show StableHlo.after hostOps2 (W4 m ρ c) (Proc.devRef .tc main_v37) = _
  after_results_simp

/-! ## The weights and biases the launches read, entry by entry -/

/-- The first layer's weights as the first launch reads them: the transpose of the fifth argument. -/
theorem wt1_at (c : Dev nD) (k q : Fin 64) :
    W1 (F := Ideal) m ρ c (Proc.devRef .tc main_v0) (ix2 k q) = m ((c : Thread nD τ).loc main_arg4) (ix2 q k) := by
  show StableHlo.after hostOps0 (W0 m ρ c) (Proc.devRef .tc main_v0) (ix2 k q) = _
  after_results
  exact transpose_ix2_apply _ _ k q

/-- The first layer's bias as a one-row matrix. -/
theorem b1_at (c : Dev nD) (q : Fin 64) :
    W1 (F := Ideal) m ρ c (Proc.devRef .tc main_v1) (ix2 (0 : Fin 1) q) = m ((c : Thread nD τ).loc main_arg5) (ix1 q) := by
  show StableHlo.after hostOps0 (W0 m ρ c) (Proc.devRef .tc main_v1) (ix2 (0 : Fin 1) q) = _
  after_results
  exact shapeCast_a_1a_apply _ _ 0 q

/-- The second layer's first half (the columns the node's own row meets), transposed. -/
theorem wt2a_at (c : Dev nD) (k q : Fin 64) :
    W1 (F := Ideal) m ρ c (Proc.devRef .tc main_v3) (ix2 k q) = m ((c : Thread nD τ).loc main_arg6) (ix2 q (⟨k.val, by omega⟩ : Fin 128)) := by
  show StableHlo.after hostOps0 (W0 m ρ c) (Proc.devRef .tc main_v3) (ix2 k q) = _
  after_results
  refine (transpose_ix2_apply _ _ k q).trans ?_
  exact slice2_axis1_apply 0 _ _ q k _ (by simp)

/-- The second layer's second half (the columns the hyperedge's row meets), transposed. -/
theorem wt2b_at (c : Dev nD) (k q : Fin 64) :
    W1 (F := Ideal) m ρ c (Proc.devRef .tc main_v5) (ix2 k q) = m ((c : Thread nD τ).loc main_arg6) (ix2 q (⟨64 + k.val, by omega⟩ : Fin 128)) := by
  show StableHlo.after hostOps0 (W0 m ρ c) (Proc.devRef .tc main_v5) (ix2 k q) = _
  after_results
  refine (transpose_ix2_apply _ _ k q).trans ?_
  exact slice2_axis1_apply 64 _ _ q k _ rfl

/-- The second layer's bias as a one-row matrix. -/
theorem b2_at (c : Dev nD) (q : Fin 64) :
    W1 (F := Ideal) m ρ c (Proc.devRef .tc main_v6) (ix2 (0 : Fin 1) q) = m ((c : Thread nD τ).loc main_arg7) (ix1 q) := by
  show StableHlo.after hostOps0 (W0 m ρ c) (Proc.devRef .tc main_v6) (ix2 (0 : Fin 1) q) = _
  after_results
  exact shapeCast_a_1a_apply _ _ 0 q

/-- The zero bias row the second launch is given. -/
theorem bz_at (c : Dev nD) (q : Fin 64) :
    W3 (F := Ideal) m ρ c (Proc.devRef .tc main_v18) (ix2 (0 : Fin 1) q) = (0 : EReal) := by
  show StableHlo.after hostOps1 (W2 m ρ c) (Proc.devRef .tc main_v18) (ix2 (0 : Fin 1) q) = _
  after_results
  exact Ideal.ofBits_zero_f32

/-- The last layer's weights as the third launch reads them. -/
theorem wt3_at (c : Dev nD) (k q : Fin 64) :
    W5 (F := Ideal) m ρ c (Proc.devRef .tc main_v38) (ix2 k q) = m ((c : Thread nD τ).loc main_arg8) (ix2 q k) := by
  show StableHlo.after hostOps2 (W4 m ρ c) (Proc.devRef .tc main_v38) (ix2 k q) = _
  after_results_simp
  rw [at4_main_arg8]
  exact transpose_ix2_apply _ _ k q

/-- The last layer's bias as a one-row matrix. -/
theorem b3_at (c : Dev nD) (q : Fin 64) :
    W5 (F := Ideal) m ρ c (Proc.devRef .tc main_v39) (ix2 (0 : Fin 1) q) = m ((c : Thread nD τ).loc main_arg9) (ix1 q) := by
  show StableHlo.after hostOps2 (W4 m ρ c) (Proc.devRef .tc main_v39) (ix2 (0 : Fin 1) q) = _
  after_results_simp
  rw [at4_main_arg9]
  exact shapeCast_a_1a_apply _ _ 0 q

/-! ## The launches' outputs, read back to the launched arrays -/

/-- The first launch's first output: every node's row through the first layer. -/
theorem lin1_at2 (c : Dev nD) : W2 (F := Ideal) m ρ c (Proc.devRef .tc main_v7_0)
    = rowLin (M := 100000) (m ((c : Thread nD τ).loc main_arg0)) (W1 m ρ c (Proc.devRef .tc main_v0)) (W1 m ρ c (Proc.devRef .tc main_v1)) :=
  (W2_arr m ρ c 5).trans ((Cert.KernelIdeal.Rows.lin1_rows (V1 m ρ) c).trans
    (congrArg (fun X => rowLin (M := 100000) X (W1 m ρ c (Proc.devRef .tc main_v0)) (W1 m ρ c (Proc.devRef .tc main_v1))) (w1_main_arg0 m ρ c)))

/-- The first launch's second output: every node's row through the second layer's first half, with its bias. -/
theorem xab_at2 (c : Dev nD) : W2 (F := Ideal) m ρ c (Proc.devRef .tc main_v7_1)
    = rowLin (M := 100000) (m ((c : Thread nD τ).loc main_arg0)) (W1 m ρ c (Proc.devRef .tc main_v3)) (W1 m ρ c (Proc.devRef .tc main_v6)) :=
  (W2_arr m ρ c 6).trans ((Cert.KernelIdeal.Rows.xab_rows (V1 m ρ) c).trans
    (congrArg (fun X => rowLin (M := 100000) X (W1 m ρ c (Proc.devRef .tc main_v3)) (W1 m ρ c (Proc.devRef .tc main_v6))) (w1_main_arg0 m ρ c)))

/-- The hyperedge sums after the second stretch, from the launched arrays. -/
theorem edgeSums_at3 (c : Dev nD) : W3 (F := Ideal) m ρ c (Proc.devRef .tc main_v17)
    = edgeSums (rowLin (M := 100000) (m ((c : Thread nD τ).loc main_arg0)) (W1 m ρ c (Proc.devRef .tc main_v0)) (W1 m ρ c (Proc.devRef .tc main_v1)))
        (m ((c : Thread nD τ).loc main_arg2)) (m ((c : Thread nD τ).loc main_arg3)) := by
  rw [stage_edgeSums, lin1_at2, at2_main_arg2, at2_main_arg3]

/-- The hyperedge sums are an input of the second launch, which leaves them as it found them. -/
theorem edgeSums_at4 (c : Dev nD) : W4 (F := Ideal) m ρ c (Proc.devRef .tc main_v17) = W3 m ρ c (Proc.devRef .tc main_v17) :=
  (W4_arr m ρ c 0).trans (((dat1 (V3 m ρ) c).arrAt_in 0 rfl _).trans (A_eq1 (V3 m ρ) c 0))

/-- The second launch's output: the hyperedge sums through the second layer's second half. -/
theorem xeb_at4 (c : Dev nD) : W4 (F := Ideal) m ρ c (Proc.devRef .tc main_v19)
    = rowLin (M := 20000) (W3 m ρ c (Proc.devRef .tc main_v17)) (W1 m ρ c (Proc.devRef .tc main_v5)) (W3 m ρ c (Proc.devRef .tc main_v18)) :=
  (W4_arr m ρ c 3).trans ((Cert.KernelIdeal.Rows.xeb_rows (V3 m ρ) c).trans
    (congrArg (fun X => rowLin (M := 20000) (W3 m ρ c (Proc.devRef .tc main_v17)) X (W3 m ρ c (Proc.devRef .tc main_v18)))
      ((w3_main_v5 m ρ c).trans (w2_main_v5 m ρ c))))

/-- THE SECOND RESULT: the hyperedge sums, from the launched arrays. -/
theorem xe_val (c : Dev nD) : W6 (F := Ideal) m ρ c (Proc.devRef .tc main_v17)
    = edgeSums (rowLin (M := 100000) (m ((c : Thread nD τ).loc main_arg0)) (W1 m ρ c (Proc.devRef .tc main_v0)) (W1 m ρ c (Proc.devRef .tc main_v1)))
        (m ((c : Thread nD τ).loc main_arg2)) (m ((c : Thread nD τ).loc main_arg3)) := by
  have h65 : W6 (F := Ideal) m ρ c (Proc.devRef .tc main_v17) = W5 m ρ c (Proc.devRef .tc main_v17) := W6_of_ne m ρ c main_v17 (by decide)
  have h54 : W5 (F := Ideal) m ρ c (Proc.devRef .tc main_v17) = W4 m ρ c (Proc.devRef .tc main_v17) := by
    show StableHlo.after hostOps2 (W4 m ρ c) (Proc.devRef .tc main_v17) = _
    after_results_simp
  rw [h65, h54, edgeSums_at4, edgeSums_at3]

/-- THE FIRST RESULT: the last layer applied to the even mix of the node sums and the second input. -/
theorem out_val (c : Dev nD) : W6 (F := Ideal) m ρ c (Proc.devRef .tc main_v40)
    = rowLin (M := 100000)
        (mix (nodeSums
            (rowLin (M := 100000) (m ((c : Thread nD τ).loc main_arg0)) (W1 m ρ c (Proc.devRef .tc main_v3)) (W1 m ρ c (Proc.devRef .tc main_v6)))
            (rowLin (M := 20000)
              (edgeSums (rowLin (M := 100000) (m ((c : Thread nD τ).loc main_arg0)) (W1 m ρ c (Proc.devRef .tc main_v0)) (W1 m ρ c (Proc.devRef .tc main_v1)))
                (m ((c : Thread nD τ).loc main_arg2)) (m ((c : Thread nD τ).loc main_arg3)))
              (W1 m ρ c (Proc.devRef .tc main_v5)) (W3 m ρ c (Proc.devRef .tc main_v18)))
            (m ((c : Thread nD τ).loc main_arg2)) (m ((c : Thread nD τ).loc main_arg3)))
          (m ((c : Thread nD τ).loc main_arg1)))
        (W5 m ρ c (Proc.devRef .tc main_v38)) (W5 m ρ c (Proc.devRef .tc main_v39)) := by
  have hxab : W4 (F := Ideal) m ρ c (Proc.devRef .tc main_v7_1)
      = rowLin (M := 100000) (m ((c : Thread nD τ).loc main_arg0)) (W1 m ρ c (Proc.devRef .tc main_v3)) (W1 m ρ c (Proc.devRef .tc main_v6)) :=
    (w4_main_v7_1 m ρ c).trans ((w3_main_v7_1 m ρ c).trans (xab_at2 m ρ c))
  have hns : W5 (F := Ideal) m ρ c (Proc.devRef .tc main_v37) = _ := stage_nodeSums m ρ c
  rw [hxab, xeb_at4, edgeSums_at3, at4_main_arg2, at4_main_arg3] at hns
  have h1 : W5 (F := Ideal) m ρ c (Proc.devRef .tc main_arg1) = m ((c : Thread nD τ).loc main_arg1) :=
    (w5_main_arg1 m ρ c).trans (at4_main_arg1 m ρ c)
  refine (W6_arr m ρ c 4).trans ((Cert.KernelIdeal.Rows.out_rows (V5 m ρ) c).trans ?_)
  show rowLin (M := 100000) (mix (W5 m ρ c (Proc.devRef .tc main_v37)) (W5 m ρ c (Proc.devRef .tc main_arg1)))
      (W5 m ρ c (Proc.devRef .tc main_v38)) (W5 m ρ c (Proc.devRef .tc main_v39)) = _
  rw [hns, h1]

end Cert.KernelIdeal.Stages

end
-- ==== Proof.LibBroadcastInDim.lean ====
/-
  Readings of `broadcast_in_dim` at an element. Between a vector and a matrix: a length-b vector laid as a
  [1, b] row; a [1, b] row repeated down `a` rows; a length-a vector laid as an [a, 1] column; an [a, 1] column repeated
  across `b` lanes. And a scalar repeated over any shape. Each reads one element of its operand.
-/
import Idealize.ShloMosaic.Lib.Pipeline.Value
import Idealize.ShloMosaic.Lib.ValueIdx

namespace Idealize.ShloMosaic.ValueIdx

variable {α : Type}

/-- A length-b vector laid as a [1, b] row reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A [1, b] row repeated down `a` rows reads, at (r, j), the row at (0, j). -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A length-a vector laid as an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An [a, 1] column repeated across `b` lanes reads, at (r, j), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else j.val
    rw [if_pos rfl]

/-- A scalar repeated over any shape reads, at every index, the scalar. -/
theorem broadcastInDim_scalar_apply {t : Shape} (x : (⟨0, ![]⟩ : Shape).Idx → α)
    (h : (⟨0, ![]⟩ : Shape).BroadcastsInDim t ![]) (i : t.Idx) : broadcastInDim t ![] h x i = x ix0 :=
  broadcastInDim_apply _ h x i ix0 fun a => a.elim0

end Idealize.ShloMosaic.ValueIdx
-- ==== Proof.RefStages.lean ====
/-
  The reference's dense stages as affine row maps.

  The reference forms each dense stage as a matrix product on the host plus a bias row repeated down the rows; at the
  exact values that is the affine row map: entry (p, q) is the sum over k of L(p, k) · R(k, q), plus b(q). Its last
  stage applies the map to the even mix of the node sums and the second input.
-/
import proofs.«144145_j50233937494095_2_alg».proof.Proof.Gen.ReferenceIdeal.Read
import proofs.«144145_j50233937494095_2_alg».proof.Proof.Spec
import proofs.«144145_j50233937494095_2_alg».proof.Proof.LibPlainDot
import proofs.«144145_j50233937494095_2_alg».proof.Proof.LibBroadcastInDim

noncomputable section

namespace Cert.ReferenceIdeal.RefValue

open Cert.ReferenceIdeal Cert.ReferenceIdeal.Gen Cert.ReferenceIdeal.Read Cert.SetConv
open Idealize.ShloMosaic Idealize.ShloMosaic.ValueIdx

/-- The reference's 64-lane contraction is the plain matrix product's. -/
theorem dot_plain : dot_S100000x64_S64x64_S100000x64_1_0_0_1_n_n = DotDims.plain 100000 64 64 := rfl

/-- The host's product of a 100000 × 64 array with a 64 × 64 matrix, plus a bias row repeated down the rows, is the
    affine row map. -/
theorem affine_eq (L : FVec Ideal S100000x64 .f32) (R : FVec Ideal S64x64 .f32) (b : FVec Ideal S1x64 .f32) :
    addf (Host.dotGeneral (F := Ideal) dot_S100000x64_S64x64_S100000x64_1_0_0_1_n_n none L R)
        (broadcastInDim S100000x64 ![0, 1] bcast_S1x64_S100000x64_0_1 b) = rowLin L R b := by
  funext i
  obtain ⟨p, q, rfl⟩ : ∃ (p : Fin 100000) (q : Fin 64), i = ix2 p q := ⟨i 0, i 1, eq_ix2 i⟩
  refine (congrArg₂ (· + ·) (dotGeneral_plain_apply _ dot_plain none L R p q) (broadcastInDim_1b_ab_apply b _ p q)).trans ?_
  rfl

/-- The first dense stage: every node's row through the first linear layer. -/
theorem lin1_eq (x0 : FVec Ideal S100000x64 .f32) (x4 : FVec Ideal S64x64 .f32) (x5 : FVec Ideal S64 .f32) :
    val_main_v4 (F := Ideal) x0 x4 x5 = rowLin x0 (val_main_v0 (F := Ideal) x4) (val_main_v2 (F := Ideal) x5) := by
  unfold val_main_v4 val_main_v1 val_main_v3
  exact affine_eq x0 (val_main_v0 (F := Ideal) x4) (val_main_v2 (F := Ideal) x5)

/-- The mixed array: half the node sums plus half the second input. -/
theorem mix_eq (x0 x1 : FVec Ideal S100000x64 .f32) (x2 x3 : IVec S1000000 32) (x4 : FVec Ideal S64x64 .f32)
    (x5 : FVec Ideal S64 .f32) (x6 : FVec Ideal S64x128 .f32) (x7 : FVec Ideal S64 .f32) :
    val_main_v42 (F := Ideal) x0 x1 x2 x3 x4 x5 x6 x7 = mix (val_main_v37 (F := Ideal) x0 x2 x3 x4 x5 x6 x7) x1 := by
  unfold val_main_v42 val_main_v39 val_main_v41 val_main_v38 val_main_v40 val_main_cst_6 val_main_cst_7
  generalize val_main_v37 (F := Ideal) x0 x2 x3 x4 x5 x6 x7 = Y
  funext i
  rw [addf_apply, mulf_apply, mulf_apply, broadcastInDim_scalar_apply, constant_apply]
  unfold mix half
  rfl

/-- The result: the mixed array through the last linear layer. -/
theorem out_eq (x0 x1 : FVec Ideal S100000x64 .f32) (x2 x3 : IVec S1000000 32) (x4 : FVec Ideal S64x64 .f32)
    (x5 : FVec Ideal S64 .f32) (x6 : FVec Ideal S64x128 .f32) (x7 : FVec Ideal S64 .f32) (x8 : FVec Ideal S64x64 .f32)
    (x9 : FVec Ideal S64 .f32) :
    val_main_v47 (F := Ideal) x0 x1 x2 x3 x4 x5 x6 x7 x8 x9
      = rowLin (mix (val_main_v37 (F := Ideal) x0 x2 x3 x4 x5 x6 x7) x1) (val_main_v43 (F := Ideal) x8)
          (val_main_v45 (F := Ideal) x9) := by
  unfold val_main_v47 val_main_v44 val_main_v46
  rw [mix_eq]
  generalize mix (val_main_v37 (F := Ideal) x0 x2 x3 x4 x5 x6 x7) x1 = Y
  exact affine_eq Y (val_main_v43 (F := Ideal) x8) (val_main_v45 (F := Ideal) x9)

end Cert.ReferenceIdeal.RefValue

end
-- ==== Proof.LibRowIndexing.lean ====
/-
  ROW INDEXING READ AT ONE ELEMENT: the gather that selects rows of a matrix by an array of start indices, and the
  accumulating scatters that add update rows (or update entries) back at such indices, each read at a single element and
  at the exact (extended-real) values.

  Take a matrix x of shape [N, C] and Z start indices laid out as a [Z, 1] array of signed words.
  * The row gather (offset axis 1, collapsed axis 0, start index map [0], slice sizes [1, C], index vector axis 1) has
    result [Z, C]; its entry (n, q) is x(r, q), where r is the n-th start index read as a signed integer and clamped into
    [0, N - 1] (gather_rowTake_apply, with r = takeRow).
  * The row scatter with an additive body (update window axis 1, inserted window axis 0, scatter map [0], index vector
    axis 1) takes updates of shape [Z, C]; update entry (n, q') lands at operand entry (i, q) exactly when the n-th start
    index, read signed and NOT clamped, equals i and q' = q, and an update whose start index is outside [0, N) is dropped.
    Hence entry (i, q) of the result is x(i, q) plus the sum of upd(n, q) over the rows n whose start index is i
    (scatterAdd_rows_apply).
  * The same for a vector operand of shape [N] and updates of shape [Z] (no window axis): entry i of the result is x(i)
    plus the sum of upd(n) over the n whose start index is i (scatterAdd_vec_apply).
  The one general step is resultIdx?_eq_some_iff: an update index lands at operand index i exactly when, on every operand
  axis, start plus window coordinate equals i's coordinate (as integers). The rest evaluates the dimension numbers above
  on the two or one operand axes, and re-indexes a sum over a rank-2 (rank-1) index set by its coordinates.
-/
import Idealize.ShloMosaic.PureOps.Ideal.Laws
import Idealize.ShloMosaic.Lib.ValueIdx

noncomputable section

open scoped BigOperators

namespace Idealize.ShloMosaic.ValueIdx

open Idealize.ShloMosaic

/-! ## Rows of a matrix selected by an array of start indices -/

section RowTake
variable {α : Type}

/-- The dimension numbers of `x[idx]` for a matrix `x : [N, C]` and one start index per result row, the indices laid out as
    `[Z, 1]`: result axis 1 is the offset axis (it runs over a whole row of `C` entries), operand axis 0 is collapsed and
    is the one the start index addresses, the index vector lies on axis 1 of the indices. The conditions `wf` are decided
    on literal sizes. -/
abbrev rowTakeDims (N Z C : Nat)
    (wf : GatherDims.WF ⟨2, ![N, C]⟩ ⟨2, ![Z, 1]⟩ ⟨2, ![Z, C]⟩ [1] [0] [] [0] [] 1 ![1, C]) :
    GatherDims ⟨2, ![N, C]⟩ ⟨2, ![Z, 1]⟩ ⟨2, ![Z, C]⟩ where
  offsetDims := [1]
  collapsedSliceDims := [0]
  operandBatchingDims := []
  startIndicesBatchingDims := []
  startIndexMap := [0]
  indexVectorDim := 1
  sliceSizes := ![1, C]
  wf := wf

/-- The row a start index selects: the word read as a signed integer, negative values sent to 0, clamped into
    `[0, N - 1]`. -/
def takeRow (N : Nat) (hN : 0 < N) {w : Nat} (v : BitVec w) : Fin N := ⟨min v.toInt.toNat (N - 1), by omega⟩

/-- THE ROW GATHER READ AT `(n, q)`: entry `q` of the operand's row selected by the `n`-th start index, read signed and
    clamped into `[0, N - 1]`. On operand axis 0 the index is the clamped start (no batching, no offset: the axis is
    collapsed); on axis 1 the start is 0 (the axis is not in the start index map) and the offset is the result's
    coordinate on its offset axis, `q`. -/
theorem gather_rowTake_apply {N Z C w : Nat} (hN : 0 < N)
    (wf : GatherDims.WF ⟨2, ![N, C]⟩ ⟨2, ![Z, 1]⟩ ⟨2, ![Z, C]⟩ [1] [0] [] [0] [] 1 ![1, C])
    (D : GatherDims ⟨2, ![N, C]⟩ ⟨2, ![Z, 1]⟩ ⟨2, ![Z, C]⟩) (hD : D = rowTakeDims N Z C wf)
    (x : (⟨2, ![N, C]⟩ : Shape).Idx → α) (idx : IVec ⟨2, ![Z, 1]⟩ w) (n : Fin Z) (q : Fin C) :
    Host.gather D x idx (ix2 n q) = x (ix2 (takeRow N hN (idx (ix2 n (0 : Fin 1)))) q) := by
  subst hD
  unfold Host.gather
  have h0 : ((rowTakeDims N Z C wf).operandIdx (ix2 n q) idx (0 : Fin 2)).val
      = (takeRow N hN (idx (ix2 n (0 : Fin 1)))).val := by
    show (rowTakeDims N Z C wf).start (ix2 n q) idx 0 + (rowTakeDims N Z C wf).batchCoord (ix2 n q) 0
      + (rowTakeDims N Z C wf).offCoord (ix2 n q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N Z C wf).startIndexMap from List.mem_singleton.mpr rfl)]
    have hsi : (rowTakeDims N Z C wf).siIdx (ix2 n q) ⟨List.idxOf (0 : Fin 2) (rowTakeDims N Z C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have h1 : ((rowTakeDims N Z C wf).operandIdx (ix2 n q) idx (1 : Fin 2)).val = q.val := by
    show (rowTakeDims N Z C wf).start (ix2 n q) idx 1 + (rowTakeDims N Z C wf).batchCoord (ix2 n q) 1
      + (rowTakeDims N Z C wf).offCoord (ix2 n q) 1 = _
    rw [GatherDims.batchCoord_eq_zero _ _ _ List.not_mem_nil]
    have hs : (rowTakeDims N Z C wf).start (ix2 n q) idx 1 = 0 := by
      unfold GatherDims.start
      rw [dif_neg (show (1 : Fin 2) ∉ (rowTakeDims N Z C wf).startIndexMap from (by decide : (1 : Fin 2) ∉ ([0] : List (Fin 2))))]
    rw [hs]
    simp only [Nat.add_zero, Nat.zero_add]
    have hk : (1 : Fin 2) ∈ (rowTakeDims N Z C wf).sKept :=
      (GatherDims.mem_sKept _ _).mpr ⟨(by decide : (1 : Fin 2) ∉ ([0] : List (Fin 2))), List.not_mem_nil⟩
    unfold GatherDims.offCoord
    rw [dif_pos hk]
    rfl
  congr 1
  funext a
  match a with
  | ⟨0, _⟩ => exact Fin.ext h0
  | ⟨1, _⟩ => exact Fin.ext h1

end RowTake

/-! ## Update rows added back at an array of start indices -/

section RowScatter

/-- An update index `j` lands at operand index `i` exactly when on every operand axis the start (a signed integer, not
    clamped) plus the window coordinate is `i`'s coordinate. Left to right the in-range condition makes the truncation to a
    natural number exact; right to left `i`'s coordinates being in range gives the in-range condition. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  split
  · rename_i h
    constructor
    · intro e a
      have e' := congrFun (Option.some.inj e) a
      have ha := (h a).1
      rw [← e']
      exact (Int.toNat_of_nonneg ha).symm
    · intro e
      refine congrArg some (funext fun a => Fin.ext ?_)
      have := e a
      show (d.start j idx a + d.window j a).toNat = (i a).val
      omega
  · rename_i h
    constructor
    · intro e; exact absurd e (by simp)
    · intro e
      refine absurd (fun a => ?_) h
      have := e a
      have hlt := (i a).isLt
      omega

/-- The dimension numbers of a row scatter: update row `n` (of `C` entries, the window axis 1 of the updates) goes to the
    operand row named by `idx[n, 0]`; operand axis 0 is the inserted window axis and the one the scatter index addresses, the
    index vector lies on axis 1 of the indices. -/
abbrev rowScatterDims (N Z C : Nat) (wf : ScatterDims.WF ⟨2, ![N, C]⟩ ⟨2, ![Z, 1]⟩ ⟨2, ![Z, C]⟩ [1] [0] [0] 1) :
    ScatterDims ⟨2, ![N, C]⟩ ⟨2, ![Z, 1]⟩ ⟨2, ![Z, C]⟩ where
  updateWindowDims := [1]
  insertedWindowDims := [0]
  scatterDimsToOperandDims := [0]
  indexVectorDim := 1
  wf := wf

/-- Update entry `(n, q')` of a row scatter lands at operand entry `(i, q)` exactly when the `n`-th start index, read signed,
    is `i` and `q' = q`: on axis 0 the start is that index and the window coordinate 0, on axis 1 the start is 0 and the
    window coordinate `q'`. -/
theorem rowScatter_resultIdx?_iff {N Z C w : Nat} (wf : ScatterDims.WF ⟨2, ![N, C]⟩ ⟨2, ![Z, 1]⟩ ⟨2, ![Z, C]⟩ [1] [0] [0] 1)
    (idx : IVec ⟨2, ![Z, 1]⟩ w) (n : Fin Z) (q' : Fin C) (i : Fin N) (q : Fin C) :
    (rowScatterDims N Z C wf).resultIdx? (ix2 n q') idx = some (ix2 i q)
      ↔ (idx (ix2 n (0 : Fin 1))).toInt = (i.val : Int) ∧ q' = q := by
  rw [resultIdx?_eq_some_iff]
  have s0 : (rowScatterDims N Z C wf).start (ix2 n q') idx (0 : Fin 2) = (idx (ix2 n (0 : Fin 1))).toInt := by
    unfold ScatterDims.start
    rw [dif_pos (show (0 : Fin 2) ∈ (rowScatterDims N Z C wf).scatterDimsToOperandDims from List.mem_singleton.mpr rfl)]
    have hsi : (rowScatterDims N Z C wf).siIdx (ix2 n q') ⟨List.idxOf (0 : Fin 2) (rowScatterDims N Z C wf).scatterDimsToOperandDims,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
  have s1 : (rowScatterDims N Z C wf).start (ix2 n q') idx (1 : Fin 2) = 0 := by
    unfold ScatterDims.start
    rw [dif_neg (show (1 : Fin 2) ∉ (rowScatterDims N Z C wf).scatterDimsToOperandDims from
      (by decide : (1 : Fin 2) ∉ ([0] : List (Fin 2))))]
  have w0 : (rowScatterDims N Z C wf).window (ix2 n q') (0 : Fin 2) = 0 := by
    unfold ScatterDims.window
    rw [dif_neg (show (0 : Fin 2) ∉ (rowScatterDims N Z C wf).sKept from
      (by decide : (0 : Fin 2) ∉ (List.finRange 2).filter (· ∉ ([0] : List (Fin 2)))))]
  have w1 : (rowScatterDims N Z C wf).window (ix2 n q') (1 : Fin 2) = q'.val := by
    unfold ScatterDims.window
    rw [dif_pos (show (1 : Fin 2) ∈ (rowScatterDims N Z C wf).sKept from
      (by decide : (1 : Fin 2) ∈ (List.finRange 2).filter (· ∉ ([0] : List (Fin 2)))))]
    rfl
  rw [Fin.forall_fin_two, s0, s1, w0, w1]
  show (idx (ix2 n 0)).toInt + ((0 : Nat) : Int) = (i.val : Int) ∧ (0 : Int) + (q'.val : Int) = (q.val : Int) ↔ _
  constructor
  · rintro ⟨h1, h2⟩
    exact ⟨by omega, Fin.ext (by omega)⟩
  · rintro ⟨h1, rfl⟩
    exact ⟨by omega, by omega⟩

/-- THE ACCUMULATING ROW SCATTER READ AT `(i, q)`, at the exact values: the operand's entry plus the sum of the updates'
    entries `(n, q)` over the rows `n` whose start index, read signed and not clamped, is exactly `i` (rows with a start index
    outside `[0, N)` contribute to no entry). The sum over the update indices that land at `(i, q)` is written as a double sum
    over `(n, q')` of an indicator; the inner sum over `q'` keeps the single term `q' = q`. -/
theorem scatterAdd_rows_apply {N Z C w : Nat} (wf : ScatterDims.WF ⟨2, ![N, C]⟩ ⟨2, ![Z, 1]⟩ ⟨2, ![Z, C]⟩ [1] [0] [0] 1)
    (D : ScatterDims ⟨2, ![N, C]⟩ ⟨2, ![Z, 1]⟩ ⟨2, ![Z, C]⟩) (hD : D = rowScatterDims N Z C wf)
    (x : FVec Ideal ⟨2, ![N, C]⟩ .f32) (idx : IVec ⟨2, ![Z, 1]⟩ w) (upd : FVec Ideal ⟨2, ![Z, C]⟩ .f32)
    (i : Fin N) (q : Fin C) :
    Host.scatterAdd D x idx upd (ix2 i q)
      = x (ix2 i q) + ∑ n ∈ Finset.univ.filter (fun n : Fin Z => (idx (ix2 n (0 : Fin 1))).toInt = (i.val : Int)),
          upd (ix2 n q) := by
  subst hD
  show Ideal.hostScatterAdd (rowScatterDims N Z C wf) x idx upd (ix2 i q) = _
  unfold Ideal.hostScatterAdd
  congr 1
  rw [Finset.sum_filter, sum_idx2, Finset.sum_filter]
  refine Finset.sum_congr rfl fun n _ => ?_
  simp only [rowScatter_resultIdx?_iff]
  by_cases h : (idx (ix2 n (0 : Fin 1))).toInt = (i.val : Int)
  · simp only [h, true_and, if_true]
    exact Finset.sum_ite_eq' Finset.univ q (fun q' => upd (ix2 n q')) |>.trans (if_pos (Finset.mem_univ q))
  · simp only [h, false_and, if_false]
    exact Finset.sum_const_zero

end RowScatter

/-! ## Update entries added back into a vector at an array of start indices -/

section VecScatter

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The same for a vector operand: update `n` (a single entry, the updates have no window axis) goes to the operand entry
    named by `idx[n, 0]`; the operand's one axis is inserted and is the one the scatter index addresses. -/
abbrev vecScatterDims (N Z : Nat) (wf : ScatterDims.WF ⟨1, ![N]⟩ ⟨2, ![Z, 1]⟩ ⟨1, ![Z]⟩ [] [0] [0] 1) :
    ScatterDims ⟨1, ![N]⟩ ⟨2, ![Z, 1]⟩ ⟨1, ![Z]⟩ where
  updateWindowDims := []
  insertedWindowDims := [0]
  scatterDimsToOperandDims := [0]
  indexVectorDim := 1
  wf := wf

/-- Update `n` of a vector scatter lands at operand entry `i` exactly when the `n`-th start index, read signed, is `i`. -/
theorem vecScatter_resultIdx?_iff {N Z w : Nat} (wf : ScatterDims.WF ⟨1, ![N]⟩ ⟨2, ![Z, 1]⟩ ⟨1, ![Z]⟩ [] [0] [0] 1)
    (idx : IVec ⟨2, ![Z, 1]⟩ w) (n : Fin Z) (i : Fin N) :
    (vecScatterDims N Z wf).resultIdx? (ix1 n) idx = some (ix1 i)
      ↔ (idx (ix2 n (0 : Fin 1))).toInt = (i.val : Int) := by
  rw [resultIdx?_eq_some_iff]
  have s0 : (vecScatterDims N Z wf).start (ix1 n) idx (0 : Fin 1) = (idx (ix2 n (0 : Fin 1))).toInt := by
    unfold ScatterDims.start
    rw [dif_pos (show (0 : Fin 1) ∈ (vecScatterDims N Z wf).scatterDimsToOperandDims from List.mem_singleton.mpr rfl)]
    have hsi : (vecScatterDims N Z wf).siIdx (ix1 n) ⟨List.idxOf (0 : Fin 1) (vecScatterDims N Z wf).scatterDimsToOperandDims,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
  have w0 : (vecScatterDims N Z wf).window (ix1 n) (0 : Fin 1) = 0 := by
    unfold ScatterDims.window
    rw [dif_neg (show (0 : Fin 1) ∉ (vecScatterDims N Z wf).sKept from
      (by decide : (0 : Fin 1) ∉ (List.finRange 1).filter (· ∉ ([0] : List (Fin 1)))))]
  rw [Fin.forall_fin_one, s0, w0]
  show (idx (ix2 n 0)).toInt + ((0 : Nat) : Int) = (i.val : Int) ↔ _
  constructor
  · intro h; omega
  · intro h; omega

/-- THE ACCUMULATING VECTOR SCATTER READ AT `i`, at the exact values: the operand's entry plus the sum of the updates `n` whose
    start index, read signed and not clamped, is exactly `i`. -/
theorem scatterAdd_vec_apply {N Z w : Nat} (wf : ScatterDims.WF ⟨1, ![N]⟩ ⟨2, ![Z, 1]⟩ ⟨1, ![Z]⟩ [] [0] [0] 1)
    (D : ScatterDims ⟨1, ![N]⟩ ⟨2, ![Z, 1]⟩ ⟨1, ![Z]⟩) (hD : D = vecScatterDims N Z wf)
    (x : FVec Ideal ⟨1, ![N]⟩ .f32) (idx : IVec ⟨2, ![Z, 1]⟩ w) (upd : FVec Ideal ⟨1, ![Z]⟩ .f32) (i : Fin N) :
    Host.scatterAdd D x idx upd (ix1 i)
      = x (ix1 i) + ∑ n ∈ Finset.univ.filter (fun n : Fin Z => (idx (ix2 n (0 : Fin 1))).toInt = (i.val : Int)),
          upd (ix1 n) := by
  subst hD
  show Ideal.hostScatterAdd (vecScatterDims N Z wf) x idx upd (ix1 i) = _
  unfold Ideal.hostScatterAdd
  congr 1
  rw [Finset.sum_filter, sum_idx1, Finset.sum_filter]
  refine Finset.sum_congr rfl fun n _ => ?_
  simp only [vecScatter_resultIdx?_iff]

end VecScatter

/-- A start index that, read signed, is the in-range row `i` selects row `i`: the clamp does nothing. So on in-range indices
    the gather reads the row the scatter writes. -/
theorem takeRow_of_toInt {N w : Nat} (hN : 0 < N) (v : BitVec w) (i : Fin N) (h : v.toInt = (i.val : Int)) :
    takeRow N hN v = i := by
  refine Fin.ext ?_
  show min v.toInt.toNat (N - 1) = i.val
  have := i.isLt
  rw [h, Int.toNat_natCast]
  omega

end Idealize.ShloMosaic.ValueIdx

end
-- ==== Proof.NodeSum.lean ====
/-
  The one law of extended-real algebra that joins the two programs.

  A node's message is the sum, over its incidences, of an affine image of two concatenated rows: the node's own row and
  its hyperedge's row. The contraction over the concatenation splits into the two halves, and the node's own half is
  the same at every incidence, so its sum is the number of incidences times it. On the extended reals this needs no
  finiteness: a natural number times x is x added to itself that many times, whatever x is.
-/
import Mathlib.Data.EReal.Operations
import Mathlib.Algebra.BigOperators.Fin

open scoped BigOperators

namespace Cert.SetConv

/-- A sum of ones over a finite set is its number of elements. -/
theorem sum_ones {ι : Type} (S : Finset ι) : (∑ _n ∈ S, (1 : EReal)) = (S.card : EReal) := by
  rw [Finset.sum_const, nsmul_one]

/-- Summing (A + B n) + b over a node's incidences: the count times (A + b), plus the sum of the B n. -/
theorem incidence_sum {ι : Type} (S : Finset ι) (A b : EReal) (B : ι → EReal) :
    ∑ n ∈ S, ((A + B n) + b) = (∑ _n ∈ S, (1 : EReal)) * (A + b) + ∑ n ∈ S, B n := by
  rw [sum_ones, ← EReal.nsmul_eq_mul, ← Finset.sum_const, ← Finset.sum_add_distrib]
  exact Finset.sum_congr rfl fun n _ => add_right_comm A (B n) b

/-- A contraction over 128 lanes is the contraction over the first 64 plus the one over the last 64. -/
theorem sum_split_128 (f : Fin 128 → EReal) :
    ∑ k : Fin 128, f k = (∑ k : Fin 64, f ⟨k.val, by omega⟩) + ∑ k : Fin 64, f ⟨64 + k.val, by omega⟩ := by
  have h := Fin.sum_univ_add (M := EReal) (a := 64) (b := 64) (fun k : Fin (64 + 64) => f ⟨k.val, k.isLt⟩)
  exact h

end Cert.SetConv
-- ==== Proof.Bridge.lean ====
/-
  The bridge: at the exact values the idealized kernel and the idealized reference compute the same two arrays.

  Both programs form the hyperedge sums the same way, from the same first-layer rows, so that result agrees once the
  first layer does. For the node sums the reference adds up, over a node's incidences n, the second layer applied to
  the concatenation of the node's own row and the row of n's hyperedge, with the bias; the kernel adds up only the
  hyperedge halves and supplies the node's own half, with the bias, once, multiplied by the node's degree. An
  incidence of node i carries the index i itself, which is in range and not negative, so the wrapped and clamped
  gather reads row i; the contraction over the 128 concatenated lanes splits into its two halves; and a natural
  number times an extended real is that many copies of it added up. The last layer is the same affine map on both
  sides.
-/
import proofs.«144145_j50233937494095_2_alg».proof.Proof.KernelStages
import proofs.«144145_j50233937494095_2_alg».proof.Proof.RefStages
import proofs.«144145_j50233937494095_2_alg».proof.Proof.LibRowIndexing
import proofs.«144145_j50233937494095_2_alg».proof.Proof.NodeSum
import proofs.«144145_j50233937494095_2_alg».proof.Proof.LibBroadcastInDim
import proofs.«144145_j50233937494095_2_alg».proof.Proof.LibPlainDot
import Idealize.ShloMosaic.Lib.Pipeline.Value
import Idealize.ShloMosaic.Lib.Affine
import Idealize.ShloMosaic.Lib.ValueLayout

noncomputable section

open scoped BigOperators

namespace Cert.SetConv

open Idealize.ShloMosaic Idealize.ShloMosaic.ValueIdx

/-! ## Incidences, and the indexed host operations over them -/

/-- The incidences of entry i of an index list: the positions whose word, read signed, is i. -/
def incid {N : ℕ} (x : IVec ⟨1, ![1000000]⟩ 32) (i : Fin N) : Finset (Fin 1000000) :=
  Finset.univ.filter (fun n : Fin 1000000 => (x (ix1 n)).toInt = (i.val : Int))

theorem mem_incid {N : ℕ} (x : IVec ⟨1, ![1000000]⟩ 32) (i : Fin N) (n : Fin 1000000) :
    n ∈ incid x i ↔ (x (ix1 n)).toInt = (i.val : Int) := by
  unfold incid; rw [Finset.mem_filter]; exact ⟨fun h => h.2, fun h => ⟨Finset.mem_univ _, h⟩⟩

/-- A row scatter-add into zeros, at (i, j): the sum over i's incidences of the update rows at j. -/
theorem scatter_rows_zero {N : ℕ} (wf : ScatterDims.WF ⟨2, ![N, 64]⟩ ⟨2, ![1000000, 1]⟩ ⟨2, ![1000000, 64]⟩ [1] [0] [0] 1)
    (D : ScatterDims ⟨2, ![N, 64]⟩ ⟨2, ![1000000, 1]⟩ ⟨2, ![1000000, 64]⟩) (hD : D = rowScatterDims N 1000000 64 wf)
    (Z : FVec Ideal ⟨2, ![N, 64]⟩ .f32) (hZ : ∀ i, Z i = 0) (cl : IVec ⟨2, ![1000000, 1]⟩ 32)
    (x : IVec ⟨1, ![1000000]⟩ 32) (hcl : ∀ n : Fin 1000000, cl (ix2 n (0 : Fin 1)) = x (ix1 n))
    (U : FVec Ideal ⟨2, ![1000000, 64]⟩ .f32) (i : Fin N) (j : Fin 64) :
    Host.scatterAdd (F := Ideal) D Z cl U (ix2 i j) = ∑ n ∈ incid x i, U (ix2 n j) := by
  rw [scatterAdd_rows_apply wf D hD Z cl U i j, hZ, zero_add]
  refine Finset.sum_congr ?_ (fun _ _ => rfl)
  unfold incid
  exact Finset.filter_congr (fun n _ => by rw [hcl n])

/-- A scatter-add of ones into a zero vector, at i: the number of i's incidences, as a sum of ones. -/
theorem scatter_ones_zero {N : ℕ} (wf : ScatterDims.WF ⟨1, ![N]⟩ ⟨2, ![1000000, 1]⟩ ⟨1, ![1000000]⟩ [] [0] [0] 1)
    (D : ScatterDims ⟨1, ![N]⟩ ⟨2, ![1000000, 1]⟩ ⟨1, ![1000000]⟩) (hD : D = vecScatterDims N 1000000 wf)
    (Z : FVec Ideal ⟨1, ![N]⟩ .f32) (hZ : ∀ i, Z i = 0) (cl : IVec ⟨2, ![1000000, 1]⟩ 32)
    (x : IVec ⟨1, ![1000000]⟩ 32) (hcl : ∀ n : Fin 1000000, cl (ix2 n (0 : Fin 1)) = x (ix1 n))
    (U : FVec Ideal ⟨1, ![1000000]⟩ .f32) (hU : ∀ n, U n = 1) (i : Fin N) :
    Host.scatterAdd (F := Ideal) D Z cl U (ix1 i) = ∑ _n ∈ incid x i, (1 : EReal) := by
  rw [scatterAdd_vec_apply wf D hD Z cl U i, hZ, zero_add]
  refine Finset.sum_congr ?_ (fun n _ => hU _)
  unfold incid
  exact Finset.filter_congr (fun n _ => by rw [hcl n])

/-- The binary32 word of 1.0 is the extended real one. -/
theorem one_word : Ideal.ofBits .f32 0x3F800000#32 = 1 := by
  rw [show (1 : EReal) = ((1 : ℝ) : EReal) by norm_cast]
  simp [Ideal.ofBits, Ideal.ieee, -EReal.coe_mul]
  norm_num

/-- The wrap of a negative index leaves a word that is not negative as it is. -/
theorem wrap_of_nonneg (v k : BitVec 32) (h : 0 ≤ v.toInt) :
    Scalar.select (IntOp.cmpi .slt v 0#32) (IntOp.addi v k) v = v := by
  have hne : ¬ IntOp.cmpi .slt v 0#32 = 1 := fun e => by
    have := (IntOp.cmpi_slt (x := v) (y := 0#32)).mp e
    rw [BitVec.toInt_zero] at this
    omega
  exact if_neg hne

end Cert.SetConv

/-! ## The kernel's node sums at an entry -/

namespace Cert.KernelIdeal.Stages

open Cert.KernelIdeal Cert.KernelIdeal.Gen Cert.SetConv
open Idealize.ShloMosaic Idealize.ShloMosaic.ValueIdx

/-- An index list laid as a column reads, at row n, the list at n. -/
theorem col_at (x : IVec S1000000 32) (n : Fin 1000000) : col x (ix2 n (0 : Fin 1)) = x (ix1 n) :=
  broadcastInDim_a_a1_apply x _ n 0

/-- The hyperedge gather's start index at row n: the list's word at n, wrapped by the hyperedge count if negative. -/
theorem wrapE_at (x3 : IVec S1000000 32) (n : Fin 1000000) :
    wrapE x3 (ix2 n (0 : Fin 1))
      = Scalar.select (IntOp.cmpi .slt (x3 (ix1 n)) 0#32) (IntOp.addi (x3 (ix1 n)) 20000#32) (x3 (ix1 n)) :=
  (broadcastInDim_a_a1_apply _ _ n 0).trans rfl

/-- The node gather's start index at row n: the list's word at n, wrapped by the node count if negative. -/
theorem wrapV_at (x2 : IVec S1000000 32) (n : Fin 1000000) :
    wrapV x2 (ix2 n (0 : Fin 1))
      = Scalar.select (IntOp.cmpi .slt (x2 (ix1 n)) 0#32) (IntOp.addi (x2 (ix1 n)) 100000#32) (x2 (ix1 n)) :=
  (broadcastInDim_a_a1_apply _ _ n 0).trans rfl

/-- A node's degree is its number of incidences, as a sum of ones. -/
theorem degree_at (x2 : IVec S1000000 32) (i : Fin 100000) : degree x2 (ix1 i) = ∑ _n ∈ incid x2 i, (1 : EReal) :=
  scatter_ones_zero scatter_S100000_S1000000x1_S1000000_n_0_0_1.wf _ rfl _
    (fun i => (broadcastInDim_scalar_apply _ _ i).trans Ideal.ofBits_zero_f32) (col x2) x2 (col_at x2) _
    (fun n => (broadcastInDim_scalar_apply _ _ n).trans one_word) i

/-- The kernel's node sums at (i, j): the degree times the node's own row at j, plus the sum over the node's
    incidences of the hyperedge array's row, at j, that the incidence's hyperedge index selects. -/
theorem nodeSums_at (xab : FVec Ideal S100000x64 .f32) (xeb : FVec Ideal S20000x64 .f32) (x2 x3 : IVec S1000000 32)
    (i : Fin 100000) (j : Fin 64) :
    nodeSums xab xeb x2 x3 (ix2 i j)
      = (∑ _n ∈ incid x2 i, (1 : EReal)) * xab (ix2 i j)
        + ∑ n ∈ incid x2 i, xeb (ix2 (takeRow 20000 (by decide) (wrapE x3 (ix2 n (0 : Fin 1)))) j) := by
  unfold nodeSums
  rw [addf_apply, mulf_apply, broadcastInDim_a1_ab_apply _ _ i j, broadcastInDim_a_a1_apply _ _ i (0 : Fin 1), degree_at]
  refine congrArg (fun t => (∑ _n ∈ incid x2 i, (1 : EReal)) * xab (ix2 i j) + t) ?_
  refine (scatter_rows_zero scatter_S100000x64_S1000000x1_S1000000x64_1_0_0_1.wf
    scatter_S100000x64_S1000000x1_S1000000x64_1_0_0_1 rfl
    (broadcastInDim S100000x64 ![] bcast_S_S100000x64 (constant (F := Ideal) S_ .f32 0x00000000#32))
    (fun i => (broadcastInDim_scalar_apply _ _ i).trans Ideal.ofBits_zero_f32) (col x2) x2 (col_at x2) _ i j).trans ?_
  refine Finset.sum_congr rfl fun n _ => ?_
  exact gather_rowTake_apply (by decide) gather_S20000x64_S1000000x1_S1000000x64_1_0_n_n_0_1_164.wf _ rfl xeb (wrapE x3) n j

end Cert.KernelIdeal.Stages

/-! ## The reference's node sums at an entry -/

namespace Cert.ReferenceIdeal.RefValue

open Cert.ReferenceIdeal Cert.ReferenceIdeal.Gen Cert.ReferenceIdeal.Read Cert.SetConv
open Idealize.ShloMosaic Idealize.ShloMosaic.ValueIdx

/-- The reference's 128-lane contraction is the plain matrix product's. -/
theorem dot128_plain : dot_S1000000x128_S128x64_S1000000x64_1_0_0_1_n_n = DotDims.plain 1000000 128 64 := rfl

/-- The node list laid as a column reads, at row n, the list at n. -/
theorem v36_at (x2 : IVec S1000000 32) (n : Fin 1000000) : val_main_v36 (F := Ideal) x2 (ix2 n (0 : Fin 1)) = x2 (ix1 n) :=
  broadcastInDim_a_a1_apply x2 _ n 0

/-- The node gather's start index at row n: the list's word at n, wrapped by the node count if negative. -/
theorem v27_at (x2 : IVec S1000000 32) (n : Fin 1000000) :
    val_main_v27 (F := Ideal) x2 (ix2 n (0 : Fin 1))
      = Scalar.select (IntOp.cmpi .slt (x2 (ix1 n)) 0#32) (IntOp.addi (x2 (ix1 n)) 100000#32) (x2 (ix1 n)) :=
  (broadcastInDim_a_a1_apply _ _ n 0).trans rfl

/-- The reference's node sums at (i, j): the sum over the node's incidences of the incidence's row at j. -/
theorem v37_at (x0 : FVec Ideal S100000x64 .f32) (x2 x3 : IVec S1000000 32) (x4 : FVec Ideal S64x64 .f32)
    (x5 : FVec Ideal S64 .f32) (x6 : FVec Ideal S64x128 .f32) (x7 : FVec Ideal S64 .f32) (i : Fin 100000) (j : Fin 64) :
    val_main_v37 (F := Ideal) x0 x2 x3 x4 x5 x6 x7 (ix2 i j)
      = ∑ n ∈ incid x2 i, val_main_v34 (F := Ideal) x0 x2 x3 x4 x5 x6 x7 (ix2 n j) :=
  scatter_rows_zero scatter_S100000x64_S1000000x1_S1000000x64_1_0_0_1.wf _ rfl _
    (fun i => (broadcastInDim_scalar_apply _ _ i).trans Ideal.ofBits_zero_f32) (val_main_v36 (F := Ideal) x2) x2 (v36_at x2) _ i j

/-- An incidence's row at j, for an incidence of node i: the second layer's first half on node i's own row, plus its
    second half on the row of the hyperedge sums that the incidence's hyperedge index selects, plus the bias. -/
theorem v34_at (x0 : FVec Ideal S100000x64 .f32) (x2 x3 : IVec S1000000 32) (x4 : FVec Ideal S64x64 .f32)
    (x5 : FVec Ideal S64 .f32) (x6 : FVec Ideal S64x128 .f32) (x7 : FVec Ideal S64 .f32) (n : Fin 1000000)
    (i : Fin 100000) (j : Fin 64) (hn : (x2 (ix1 n)).toInt = (i.val : Int)) :
    val_main_v34 (F := Ideal) x0 x2 x3 x4 x5 x6 x7 (ix2 n j)
      = ((∑ k : Fin 64, x0 (ix2 i k) * x6 (ix2 j (⟨k.val, by omega⟩ : Fin 128)))
          + ∑ k : Fin 64, val_main_v14 (F := Ideal) x0 x2 x3 x4 x5
                (ix2 (takeRow 20000 (by decide) (val_main_v20 (F := Ideal) x3 (ix2 n (0 : Fin 1)))) k)
              * x6 (ix2 j (⟨64 + k.val, by omega⟩ : Fin 128)))
        + x7 (ix1 j) := by
  unfold val_main_v34 val_main_v31 val_main_v33 val_main_v32
  rw [addf_apply]
  refine congrArg₂ (· + ·) ?_ ?_
  · rw [dotGeneral_plain_apply _ dot128_plain none _ _ n j, sum_split_128]
    refine congrArg₂ (· + ·) (Finset.sum_congr rfl fun k _ => ?_) (Finset.sum_congr rfl fun k _ => ?_)
    · refine congrArg₂ (· * ·) ?_ (transpose_ix2_apply x6 _ _ j)
      unfold val_main_v29
      refine (concatenate_pair_apply_left (t := S1000000x128) (s₁ := S1000000x64) (s₂ := S1000000x64) (1 : Fin 2) _ _ _
        (ix2 n (⟨k.val, by omega⟩ : Fin 128)) rfl (ix2 n k)
        (fun b => match b with | ⟨0, _⟩ => rfl | ⟨1, _⟩ => rfl)).trans ?_
      unfold val_main_v28
      refine (gather_rowTake_apply (by decide) gather_S100000x64_S1000000x1_S1000000x64_1_0_n_n_0_1_164.wf _ rfl x0 _ n k).trans ?_
      rw [v27_at, wrap_of_nonneg _ _ (by rw [hn]; exact Int.natCast_nonneg _), takeRow_of_toInt (by decide) _ i hn]
    · refine congrArg₂ (· * ·) ?_ (transpose_ix2_apply x6 _ _ j)
      unfold val_main_v29
      refine (concatenate_pair_apply_right (t := S1000000x128) (s₁ := S1000000x64) (s₂ := S1000000x64) (1 : Fin 2) _ _ _
        (ix2 n (⟨64 + k.val, by omega⟩ : Fin 128)) rfl rfl (ix2 n k)
        (fun b hb => match b, hb with | ⟨0, _⟩, _ => rfl | ⟨1, _⟩, hb => absurd rfl hb)
        (by show k.val + 64 = 64 + k.val; omega)).trans ?_
      unfold val_main_v21
      exact gather_rowTake_apply (by decide) gather_S20000x64_S1000000x1_S1000000x64_1_0_n_n_0_1_164.wf _ rfl _ _ n k
  · exact (broadcastInDim_1b_ab_apply _ _ n j).trans (broadcastInDim_b_1b_apply x7 _ 0 j)

end Cert.ReferenceIdeal.RefValue

/-! ## The two programs' results agree -/

namespace Cert.Bridge

open Cert.SetConv
open Idealize.ShloMosaic Idealize.ShloMosaic.ValueIdx

/-- An affine row map depends on its weights and its bias only through their entries. -/
theorem rowLin_congr {M : ℕ} (X : (⟨2, ![M, 64]⟩ : Shape).Idx → EReal)
    (Wt Wt' : (⟨2, ![64, 64]⟩ : Shape).Idx → EReal) (b b' : (⟨2, ![1, 64]⟩ : Shape).Idx → EReal)
    (hW : ∀ k q : Fin 64, Wt (ix2 k q) = Wt' (ix2 k q)) (hb : ∀ q : Fin 64, b (ix2 (0 : Fin 1) q) = b' (ix2 (0 : Fin 1) q)) :
    rowLin X Wt b = rowLin X Wt' b' := by
  funext i
  obtain ⟨p, q, rfl⟩ : ∃ (p : Fin M) (q : Fin 64), i = ix2 p q := ⟨i 0, i 1, eq_ix2 i⟩
  show rowLinAt X Wt b p q = rowLinAt X Wt' b' p q
  unfold rowLinAt
  rw [hb q]
  exact congrArg (fun t => t + b' (ix2 (0 : Fin 1) q)) (Finset.sum_congr rfl fun k _ => by rw [hW k q])

section
variable (x0 x1 : FVec Ideal Cert.ReferenceIdeal.S100000x64 .f32) (x2 x3 : IVec Cert.ReferenceIdeal.S1000000 32)
  (x4 : FVec Ideal Cert.ReferenceIdeal.S64x64 .f32) (x5 : FVec Ideal Cert.ReferenceIdeal.S64 .f32)
  (x6 : FVec Ideal Cert.ReferenceIdeal.S64x128 .f32) (x7 : FVec Ideal Cert.ReferenceIdeal.S64 .f32)
  (x8 : FVec Ideal Cert.ReferenceIdeal.S64x64 .f32) (x9 : FVec Ideal Cert.ReferenceIdeal.S64 .f32)
  (Wt1 Wt2a Wt2b Wt3 : (⟨2, ![64, 64]⟩ : Shape).Idx → EReal) (b1 b2 bz b3 : (⟨2, ![1, 64]⟩ : Shape).Idx → EReal)

/-- The first layer agrees: the kernel reads the weights transposed and the bias as a one-row matrix, as the
    reference does. -/
theorem lin1_eq (hW1 : ∀ k q : Fin 64, Wt1 (ix2 k q) = x4 (ix2 q k)) (hb1 : ∀ q : Fin 64, b1 (ix2 (0 : Fin 1) q) = x5 (ix1 q)) :
    rowLin (M := 100000) x0 Wt1 b1 = Cert.ReferenceIdeal.Read.val_main_v4 (F := Ideal) x0 x4 x5 := by
  rw [Cert.ReferenceIdeal.RefValue.lin1_eq]
  exact rowLin_congr x0 _ _ _ _ (fun k q => (hW1 k q).trans (transpose_ix2_apply x4 _ k q).symm)
    (fun q => (hb1 q).trans (broadcastInDim_b_1b_apply x5 _ 0 q).symm)

/-- The hyperedge sums agree: the same gather by node and the same sum per hyperedge, of the same rows. -/
theorem edgeSums_eq (hW1 : ∀ k q : Fin 64, Wt1 (ix2 k q) = x4 (ix2 q k)) (hb1 : ∀ q : Fin 64, b1 (ix2 (0 : Fin 1) q) = x5 (ix1 q)) :
    Cert.KernelIdeal.Stages.edgeSums (rowLin (M := 100000) x0 Wt1 b1) x2 x3
      = Cert.ReferenceIdeal.Read.val_main_v14 (F := Ideal) x0 x2 x3 x4 x5 := by
  rw [lin1_eq x0 x4 x5 Wt1 b1 hW1 hb1]
  unfold Cert.KernelIdeal.Stages.edgeSums Cert.ReferenceIdeal.Read.val_main_v14 Cert.ReferenceIdeal.Read.val_main_v11
  generalize Cert.ReferenceIdeal.Read.val_main_v4 (F := Ideal) x0 x4 x5 = Y
  rfl

/-- The node sums agree, entry by entry: the reference's sum over a node's incidences of the second layer on the
    concatenated rows is the degree times the node's own half with the bias, plus the sum of the hyperedge halves. -/
theorem nodeSums_eq
    (h2a : ∀ k q : Fin 64, Wt2a (ix2 k q) = x6 (ix2 q (⟨k.val, by omega⟩ : Fin 128)))
    (h2b : ∀ k q : Fin 64, Wt2b (ix2 k q) = x6 (ix2 q (⟨64 + k.val, by omega⟩ : Fin 128)))
    (hb2 : ∀ q : Fin 64, b2 (ix2 (0 : Fin 1) q) = x7 (ix1 q)) (hbz : ∀ q : Fin 64, bz (ix2 (0 : Fin 1) q) = 0) :
    Cert.KernelIdeal.Stages.nodeSums (rowLin (M := 100000) x0 Wt2a b2)
        (rowLin (M := 20000) (Cert.ReferenceIdeal.Read.val_main_v14 (F := Ideal) x0 x2 x3 x4 x5) Wt2b bz) x2 x3
      = Cert.ReferenceIdeal.Read.val_main_v37 (F := Ideal) x0 x2 x3 x4 x5 x6 x7 := by
  funext idx
  obtain ⟨i, j, rfl⟩ : ∃ (i : Fin 100000) (j : Fin 64), idx = ix2 i j := ⟨idx 0, idx 1, eq_ix2 idx⟩
  rw [Cert.KernelIdeal.Stages.nodeSums_at, Cert.ReferenceIdeal.RefValue.v37_at]
  refine Eq.trans ?_ (Finset.sum_congr rfl (fun n hn =>
    (Cert.ReferenceIdeal.RefValue.v34_at x0 x2 x3 x4 x5 x6 x7 n i j ((mem_incid x2 i n).mp hn)).symm))
  generalize Cert.ReferenceIdeal.Read.val_main_v14 (F := Ideal) x0 x2 x3 x4 x5 = Xe
  refine Eq.trans ?_ (incidence_sum (incid x2 i)
    (∑ k : Fin 64, x0 (ix2 i k) * x6 (ix2 j (⟨k.val, by omega⟩ : Fin 128)))
    (x7 (ix1 j))
    (fun n => ∑ k : Fin 64, Xe (ix2 (takeRow 20000 (by decide)
        (Cert.ReferenceIdeal.Read.val_main_v20 (F := Ideal) x3 (ix2 n (0 : Fin 1)))) k)
      * x6 (ix2 j (⟨64 + k.val, by omega⟩ : Fin 128)))).symm
  refine congrArg₂ (· + ·) (congrArg (fun t => (∑ _n ∈ incid x2 i, (1 : EReal)) * t) ?_) (Finset.sum_congr rfl fun n _ => ?_)
  · show rowLinAt x0 Wt2a b2 i j = _
    unfold rowLinAt
    rw [hb2 j]
    exact congrArg (fun t => t + x7 (ix1 j)) (Finset.sum_congr rfl fun k _ => by rw [h2a k j])
  · show rowLinAt Xe Wt2b bz _ j = _
    unfold rowLinAt
    rw [hbz j, add_zero]
    exact Finset.sum_congr rfl fun k _ => by rw [h2b k j]; rfl

/-- THE RESULT agrees: the last layer on the even mix of the node sums and the second input. -/
theorem out_eq (hW1 : ∀ k q : Fin 64, Wt1 (ix2 k q) = x4 (ix2 q k)) (hb1 : ∀ q : Fin 64, b1 (ix2 (0 : Fin 1) q) = x5 (ix1 q))
    (h2a : ∀ k q : Fin 64, Wt2a (ix2 k q) = x6 (ix2 q (⟨k.val, by omega⟩ : Fin 128)))
    (h2b : ∀ k q : Fin 64, Wt2b (ix2 k q) = x6 (ix2 q (⟨64 + k.val, by omega⟩ : Fin 128)))
    (hb2 : ∀ q : Fin 64, b2 (ix2 (0 : Fin 1) q) = x7 (ix1 q)) (hbz : ∀ q : Fin 64, bz (ix2 (0 : Fin 1) q) = 0)
    (hW3 : ∀ k q : Fin 64, Wt3 (ix2 k q) = x8 (ix2 q k)) (hb3 : ∀ q : Fin 64, b3 (ix2 (0 : Fin 1) q) = x9 (ix1 q)) :
    rowLin (M := 100000)
        (mix (Cert.KernelIdeal.Stages.nodeSums (rowLin (M := 100000) x0 Wt2a b2)
            (rowLin (M := 20000) (Cert.KernelIdeal.Stages.edgeSums (rowLin (M := 100000) x0 Wt1 b1) x2 x3) Wt2b bz) x2 x3) x1)
        Wt3 b3
      = Cert.ReferenceIdeal.Read.val_main_v47 (F := Ideal) x0 x1 x2 x3 x4 x5 x6 x7 x8 x9 := by
  rw [Cert.ReferenceIdeal.RefValue.out_eq, edgeSums_eq x0 x2 x3 x4 x5 Wt1 b1 hW1 hb1,
    nodeSums_eq x0 x2 x3 x4 x5 x6 x7 Wt2a Wt2b b2 bz h2a h2b hb2 hbz]
  exact rowLin_congr _ _ _ _ _ (fun k q => (hW3 k q).trans (transpose_ix2_apply x8 _ k q).symm)
    (fun q => (hb3 q).trans (broadcastInDim_b_1b_apply x9 _ 0 q).symm)

end

end Cert.Bridge

end
-- ==== Proof.lean ====
/-
  A two-hop hypergraph convolution: the kernel against its reference, at the exact values.

  The reference gathers the first layer's rows by node, adds them up per hyperedge, gathers the hyperedge sums back to
  the incidences, applies the second layer to each incidence's concatenated pair of rows (the node's own and its
  hyperedge's), adds those up per node, mixes evenly with the second input and applies the last layer. The kernel
  applies the second layer's two halves before the gathers: the node's own half once per node, multiplied afterwards
  by the node's degree (a scatter-add of ones), the hyperedge half on the 20000 hyperedge sums. Its three dense stages
  run as launches over row blocks; at the exact values each leaves an affine row map of what it found.

  The frames are the generated ones (the reference's is its generated run with the results dropped). The ideal pass
  rewrote nothing, so there is nothing to preserve. For the value claim the kernel's run ends with its two result
  buffers at the last boundary's contents (KernelRun), which read back to the launched arrays (KernelStages over
  RegionRows); the reference's generated run ends at its composed term; and the two are one function of the arguments
  (Bridge): the hyperedge sums by the first layer's agreement, the node sums entry by entry — an incidence of node i
  carries the index i, the 128-lane contraction splits into its halves, and a natural number times an extended real
  is that many copies of it added up. No finiteness of the inputs is needed.
-/
import proofs.«144145_j50233937494095_2_alg».proof.Defs
import proofs.«144145_j50233937494095_2_alg».proof.Proof.Gen.Kernel
import proofs.«144145_j50233937494095_2_alg».proof.Proof.Gen.Kernel.Skeleton
import proofs.«144145_j50233937494095_2_alg».proof.Proof.Gen.Kernel.Launch
import proofs.«144145_j50233937494095_2_alg».proof.Proof.Gen.Kernel.Points
import proofs.«144145_j50233937494095_2_alg».proof.Proof.Gen.Kernel.Frame
import proofs.«144145_j50233937494095_2_alg».proof.Proof.Gen.KernelIdeal
import proofs.«144145_j50233937494095_2_alg».proof.Proof.Gen.KernelIdeal.Skeleton
import proofs.«144145_j50233937494095_2_alg».proof.Proof.Gen.KernelIdeal.Launch
import proofs.«144145_j50233937494095_2_alg».proof.Proof.Gen.KernelIdeal.Points
import proofs.«144145_j50233937494095_2_alg».proof.Proof.Gen.KernelIdeal.Frame
import proofs.«144145_j50233937494095_2_alg».proof.Proof.Gen.ReferenceIdeal
import proofs.«144145_j50233937494095_2_alg».proof.Proof.Gen.ReferenceIdeal.Run
import proofs.«144145_j50233937494095_2_alg».proof.Proof.Gen.ReferenceIdeal.Read
import proofs.«144145_j50233937494095_2_alg».proof.Proof.Gen.Pre_finite_inputs
import proofs.«144145_j50233937494095_2_alg».proof.Proof.KernelRun
import proofs.«144145_j50233937494095_2_alg».proof.Proof.KernelStages
import proofs.«144145_j50233937494095_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The idealized reference runs and keeps its arguments: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both idealized programs end with the same two arrays: the reference's
    composed terms of the arguments. -/
theorem algebraic : Cert.algebraic_KernelIdeal_ReferenceIdeal := by
  intro m ρ m' ρ' _ hagree
  refine ⟨fun c => Cert.ReferenceIdeal.Read.val_main_v47 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)),
    fun c => Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2.1.trans ?_, (h c).2.2⟩)
      (Cert.KernelIdeal.RunValue.run (F := Ideal) m ρ)
    · exact (Cert.KernelIdeal.Stages.out_val m ρ c).trans
        (Cert.Bridge.out_eq _ _ _ _ _ _ _ _ _ _ _ _ _ _ _ _ _ _
          (Cert.KernelIdeal.Stages.wt1_at m ρ c) (Cert.KernelIdeal.Stages.b1_at m ρ c) (Cert.KernelIdeal.Stages.wt2a_at m ρ c)
          (Cert.KernelIdeal.Stages.wt2b_at m ρ c) (Cert.KernelIdeal.Stages.b2_at m ρ c) (Cert.KernelIdeal.Stages.bz_at m ρ c)
          (Cert.KernelIdeal.Stages.wt3_at m ρ c) (Cert.KernelIdeal.Stages.b3_at m ρ c))
    · exact (Cert.KernelIdeal.Stages.xe_val m ρ c).trans
        (Cert.Bridge.edgeSums_eq _ _ _ _ _ _ _ (Cert.KernelIdeal.Stages.wt1_at m ρ c) (Cert.KernelIdeal.Stages.b1_at m ρ c))
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9⟩ := hagree c
      refine (Cert.ReferenceIdeal.Read.val_main_v47_eq _ _ _ _ _ _ _ _ _ _).trans ?_
      rw [e0, e1, e2, e3, e4, e5, e6, e7, e8, e9]
    · obtain ⟨e0, e1, e2, e3, e4, e5, e6, e7, e8, e9⟩ := hagree c
      refine (Cert.ReferenceIdeal.Read.val_main_v14_eq _ _ _ _ _).trans ?_
      rw [e0, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
